-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x800000 32) (main_arg2 : FVec F S256x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S2000x256 : Shape := ⟨2, ![2000, 256]⟩
abbrev S2000x1 : Shape := ⟨2, ![2000, 1]⟩
abbrev S900000x256 : Shape := ⟨2, ![900000, 256]⟩
abbrev S1x256 : Shape := ⟨2, ![1, 256]⟩
abbrev S1x64 : Shape := ⟨2, ![1, 64]⟩
abbrev S100000x64 : Shape := ⟨2, ![100000, 64]⟩
abbrev S2000x64 : Shape := ⟨2, ![2000, 64]⟩
abbrev S2000 : Shape := ⟨1, ![2000]⟩

abbrev nBuf : Space → Nat
  | .hbm => 55
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x256, .f32⟩
  | .hbm, ⟨24, _⟩ => ⟨S_, .i32⟩
  | .hbm, ⟨25, _⟩ => ⟨S900000, .i32⟩
  | .hbm, ⟨26, _⟩ => ⟨S900000, .i1⟩
  | .hbm, ⟨27, _⟩ => ⟨S_, .i32⟩
  | .hbm, ⟨28, _⟩ => ⟨S900000, .i32⟩
  | .hbm, ⟨29, _⟩ => ⟨S900000, .i32⟩
  | .hbm, ⟨30, _⟩ => ⟨S900000, .i32⟩
  | .hbm, ⟨31, _⟩ => ⟨S900000x1, .i32⟩
  | .hbm, ⟨32, _⟩ => ⟨S900000x256, .f32⟩
  | .hbm, ⟨33, _⟩ => ⟨S_, .f32⟩
  | .hbm, ⟨34, _⟩ => ⟨S100000x256, .f32⟩
  | .hbm, ⟨35, _⟩ => ⟨S900000x1, .i32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S_, .i32⟩
  | .hbm, ⟨40, _⟩ => ⟨S900000, .i32⟩
  | .hbm, ⟨41, _⟩ => ⟨S900000, .i1⟩
  | .hbm, ⟨42, _⟩ => ⟨S_, .i32⟩
  | .hbm, ⟨43, _⟩ => ⟨S900000, .i32⟩
  | .hbm, ⟨44, _⟩ => ⟨S900000, .i32⟩
  | .hbm, ⟨45, _⟩ => ⟨S900000, .i32⟩
  | .hbm, ⟨46, _⟩ => ⟨S900000x1, .i32⟩
  | .hbm, ⟨47, _⟩ => ⟨S900000x256, .f32⟩
  | .hbm, ⟨48, _⟩ => ⟨S_, .f32⟩
  | .hbm, ⟨49, _⟩ => ⟨S100000x256, .f32⟩
  | .hbm, ⟨50, _⟩ => ⟨S900000x1, .i32⟩
  | .hbm, ⟨51, _⟩ => ⟨S100000x256, .f32⟩
  | .hbm, ⟨52, _⟩ => ⟨S1x256, .f32⟩
  | .hbm, ⟨53, _⟩ => ⟨S1x64, .f32⟩
  | .hbm, ⟨54, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256x256, .f32⟩
  | .local _ .vmem, ⟨10, _⟩ => ⟨S1x256, .f32⟩
  | .local _ .vmem, ⟨11, _⟩ => ⟨S2000x1, .f32⟩
  | .local _ .vmem, ⟨12, _⟩ => ⟨S2000x1, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x64, .f32⟩
  | .local _ .vmem, ⟨18, _⟩ => ⟨S1x256, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S100000_S900000x1_S900000_n_0_0_1_wf : ScatterDims.WF S100000 S900000x1 S900000 [] [0] [0] 1
  dot_S2000x256_S256x256_S2000x256_1_0_0_1_n_n_wf : DotDims.WF S2000x256 S256x256 S2000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S100000x256, .f32⟩
  | .hbm, ⟨23, _⟩ => ⟨S_, .i32⟩
  | .hbm, ⟨24, _⟩ => ⟨S900000, .i32⟩
  | .hbm, ⟨25, _⟩ => ⟨S900000, .i1⟩
  | .hbm, ⟨26, _⟩ => ⟨S_, .i32⟩
  | .hbm, ⟨27, _⟩ => ⟨S900000, .i32⟩
  | .hbm, ⟨28, _⟩ => ⟨S900000, .i32⟩
  | .hbm, ⟨29, _⟩ => ⟨S900000, .i32⟩
  | .hbm, ⟨30, _⟩ => ⟨S900000x1, .i32⟩
  | .hbm, ⟨31, _⟩ => ⟨S900000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x256, .f32⟩
  | .hbm, ⟨51, _⟩ => ⟨S900000x1, .f32⟩
  | .hbm, ⟨52, _⟩ => ⟨S900000x256, .f32⟩
  | .hbm, ⟨53, _⟩ => ⟨S900000x256, .f32⟩
  | .hbm, ⟨54, _⟩ => ⟨S_, .f32⟩
  | .hbm, ⟨55, _⟩ => ⟨S100000x256, .f32⟩
  | .hbm, ⟨56, _⟩ => ⟨S900000x1, .i32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S_, .i32⟩
  | .hbm, ⟨66, _⟩ => ⟨S900000, .i32⟩
  | .hbm, ⟨67, _⟩ => ⟨S900000, .i1⟩
  | .hbm, ⟨68, _⟩ => ⟨S_, .i32⟩
  | .hbm, ⟨69, _⟩ => ⟨S900000, .i32⟩
  | .hbm, ⟨70, _⟩ => ⟨S900000, .i32⟩
  | .hbm, ⟨71, _⟩ => ⟨S900000, .i32⟩
  | .hbm, ⟨72, _⟩ => ⟨S900000x1, .i32⟩
  | .hbm, ⟨73, _⟩ => ⟨S900000, .f32⟩
  | .hbm, ⟨74, _⟩ => ⟨S_, .i32⟩
  | .hbm, ⟨75, _⟩ => ⟨S900000, .i32⟩
  | .hbm, ⟨76, _⟩ => ⟨S900000, .i1⟩
  | .hbm, ⟨77, _⟩ => ⟨S_, .i32⟩
  | .hbm, ⟨78, _⟩ => ⟨S900000, .i32⟩
  | .hbm, ⟨79, _⟩ => ⟨S900000, .i32⟩
  | .hbm, ⟨80, _⟩ => ⟨S900000, .i32⟩
  | .hbm, ⟨81, _⟩ => ⟨S900000x1, .i32⟩
  | .hbm, ⟨82, _⟩ => ⟨S900000, .f32⟩
  | .hbm, ⟨83, _⟩ => ⟨S900000, .f32⟩
  | .hbm, ⟨84, _⟩ => ⟨S_, .i32⟩
  | .hbm, ⟨85, _⟩ => ⟨S900000, .i32⟩
  | .hbm, ⟨86, _⟩ => ⟨S900000, .i1⟩
  | .hbm, ⟨87, _⟩ => ⟨S_, .i32⟩
  | .hbm, ⟨88, _⟩ => ⟨S900000, .i32⟩
  | .hbm, ⟨89, _⟩ => ⟨S900000, .i32⟩
  | .hbm, ⟨90, _⟩ => ⟨S900000, .i32⟩
  | .hbm, ⟨91, _⟩ => ⟨S900000x1, .i32⟩
  | .hbm, ⟨92, _⟩ => ⟨S900000x256, .f32⟩
  | .hbm, ⟨93, _⟩ => ⟨S900000x1, .f32⟩
  | .hbm, ⟨94, _⟩ => ⟨S900000x256, .f32⟩
  | .hbm, ⟨95, _⟩ => ⟨S900000x256, .f32⟩
  | .hbm, ⟨96, _⟩ => ⟨S_, .f32⟩
  | .hbm, ⟨97, _⟩ => ⟨S100000x256, .f32⟩
  | .hbm, ⟨98, _⟩ => ⟨S900000x1, .i32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .hbm, ⟨103, _⟩ => ⟨S_, .f32⟩
  | .hbm, ⟨104, _⟩ => ⟨S100000x256, .f32⟩
  | .hbm, ⟨105, _⟩ => ⟨S100000x256, .f32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S900000x1_S900000_n_0_0_1_wf : ScatterDims.WF S100000 S900000x1 S900000 [] [0] [0] 1
  dot_S100000x256_S256x256_S100000x256_1_0_0_1_n_n_wf : DotDims.WF S100000x256 S256x256 S100000x256 [1] [0] [0] [1] [] []
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x64_S100000x64_1_0_0_1_n_n_wf : DotDims.WF S100000x256 S256x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KernelRun.lean ====
/-
  The idealized kernel's run with its result named.

  @main is three kernel launches among stretches of host operations. Along the run the buffer contents at every
  boundary are a fold from the launch memory: a stretch of host operations applies them, a launch leaves each of its
  arrays at what the write-backs of its grid points leave. The last boundary's contents are `Gen.W6`; every weakly fair
  execution terminates with every unscoped buffer at those contents, so the result buffer holds `Gen.W6` read at it,
  and the argument buffers what they were launched with.
-/
import proofs.«121146_j10118942949882_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the run's six segments, the last thread state read against
    the final state. -/
theorem run_main : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«121146_j10118942949882_2_alg».proof.Proof.LibKeepdims
import proofs.«121146_j10118942949882_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibGatherRows.lean ====
import Idealize.ShloMosaic.Lib.ValueIdx

/-!
# A gather of the rows of a matrix, read at an index

What `x[idx]` over the ROWS of a matrix `x : [N, C]` at an integer array `idx : [E]` lowers to: `stablehlo.gather`
with offset_dims `[1]`, collapsed_slice_dims `[0]`, start_index_map `[0]`, index_vector_dim 1 and slice_sizes
`[1, C]` over the indices as `[E, 1]`. Result element `(e, c)` is `x` at row `r(e)` and column `c`, where `r(e)` is
the start index `idx[e, 0]` read as a signed integer and clamped into `[0, N − 1]`, as StableHLO's gather clamps
every start index. The row depends on `N`, `idx` and `e` only, not on the width `C`.
-/

noncomputable section

namespace Cert.RowGather

open Idealize.ShloMosaic Idealize.ShloMosaic.ValueIdx

/-- The dimension numbers of a row gather: an operand `[N, C]`, start indices `[E, 1]` and a result `[E, C]`; axis 0
    of the operand is collapsed and indexed by the one component of the start index, axis 1 is taken whole (slice
    size `C`) and becomes the result's offset axis 1. Their conditions `wf` are decided on a program's literal
    shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the start index `idx[e, 0]` read as a signed integer and clamped into
    `[0, N − 1]`. It does not mention the operand's width. -/
def rowOf {N E w : Nat} (hN : 0 < N) (idx : IVec ⟨2, ![E, 1]⟩ w) (e : Fin E) : Fin N :=
  ⟨min (idx (ix2 e ⟨0, Nat.one_pos⟩)).toInt.toNat (N - 1), by omega⟩

/-- Axis 1 is not axis 0: it is neither collapsed nor named by the start index map. -/
private theorem one_not_mem_zero : (1 : Fin 2) ∉ [(0 : Fin 2)] := by decide

/-- THE ROW GATHER READ AT `(e, c)`: the operand at row `rowOf hN idx e` and column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  refine Fin.ext ?_
  match a with
  | ⟨0, _⟩ =>
    -- axis 0: collapsed, named by the start index map: the clamped start index alone
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- axis 1: not in the start index map (start 0), not batching, kept: the result's coordinate on offset axis 1
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from one_not_mem_zero)]
    have hk : (1 : Fin 2) ∈ (rowGatherDims N E C wf).sKept :=
      (GatherDims.mem_sKept _ _).mpr ⟨one_not_mem_zero, List.not_mem_nil⟩
    have hoff : (rowGatherDims N E C wf).offCoord (ix2 e c) 1 = c.val := by
      unfold GatherDims.offCoord
      rw [dif_pos hk]
      rfl
    rw [hst, hoff, Nat.zero_add]

end Cert.RowGather

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.Spec.lean ====
/-
  The network both programs compute, entry by entry, on the extended reals.

  A graph of 100000 nodes and 900000 directed edges (the 800000 given ones and one loop per node). Edge `e` reads
  the features of its source node — the row `rowAt idxS e`, the source index read signed and clamped into range — and is
  added into the row its target index names, read signed and NOT clamped: `into idxT n` is the set of edges landing on
  node `n`, and an edge whose target is out of range lands nowhere. Every node carries a weight `dis n`, the reciprocal
  square root of the number of edges landing on it.

  One propagation step sends features `h` to  n, c ↦ Σ_{e → n} h(src e, c) · dis(src e) · dis(n).  The two programs
  arrange this differently: one scales the features by `dis` at the source before the sum and scales the sum by `dis n`
  afterwards (`propK`); the other multiplies every summand by the product of the two weights, the second one read at
  the edge's target index clamped into range (`propR`). They agree because an edge that lands on `n` has target `n`,
  and because `dis n` is a nonnegative finite number, by which a finite sum may be scaled term by term whatever the
  terms are (`propK_eq_propR`).

  Around two such steps: a first linear map (`feat0`), then after each step a bias, a rectifier and the next linear map
  (`hidden`), a last bias, and the logarithm of the softmax of each row (`logSoftmaxRow`).
-/
import Idealize.ShloMosaic.Lib.ValueIdx
import Idealize.ShloMosaic.PureOps.Ideal
import Idealize.ShloMosaic.PureOps.Ideal.Laws
import proofs.«121146_j10118942949882_2_alg».proof.Proof.LibMaxReduce
import proofs.«121146_j10118942949882_2_alg».proof.Proof.LibGatherRows
import proofs.«121146_j10118942949882_2_alg».proof.Proof.LibERealScale

noncomputable section

open scoped BigOperators

namespace Cert.Gcn

open Idealize.ShloMosaic Idealize.ShloMosaic.ValueIdx Cert.LibMaxReduce

/-- The value of the float word of zero. -/
abbrev zeroW : EReal := Ideal.ofBits .f32 0x00000000#32
/-- The value of the float word of minus infinity. -/
abbrev ninfW : EReal := Ideal.ofBits .f32 0xFF800000#32

/-- The edges landing on node `n`: those whose target index, read signed and not clamped, is `n`. -/
def into (idxT : IVec ⟨2, ![900000, 1]⟩ 32) (n : Fin 100000) : Finset (Fin 900000) :=
  Finset.univ.filter fun e => (idxT (ix2 e ⟨0, Nat.one_pos⟩)).toInt = (n.val : Int)

/-- The node an edge reads through an index array: the index read signed and clamped into `[0, 99999]`. -/
def rowAt (idx : IVec ⟨2, ![900000, 1]⟩ 32) (e : Fin 900000) : Fin 100000 :=
  Cert.RowGather.rowOf (N := 100000) (by norm_num) idx e

/-- The first linear map: row `i` of `x` times column `c` of `w1`. -/
def feat0 (x : (⟨2, ![100000, 256]⟩ : Shape).Idx → EReal) (w1 : (⟨2, ![256, 256]⟩ : Shape).Idx → EReal)
    (i : Fin 100000) (c : Fin 256) : EReal :=
  ∑ k : Fin 256, x (ix2 i k) * w1 (ix2 k c)

/-- A propagation step with the weights applied at the nodes: the features scaled at the source, summed over the
    edges landing on `n`, the sum scaled at `n`. -/
def propK (dis : (⟨1, ![100000]⟩ : Shape).Idx → EReal) (idxS idxT : IVec ⟨2, ![900000, 1]⟩ 32)
    (h : Fin 100000 → Fin 256 → EReal) (n : Fin 100000) (c : Fin 256) : EReal :=
  (zeroW + ∑ e ∈ into idxT n, h (rowAt idxS e) c * dis (ix1 (rowAt idxS e))) * dis (ix1 n)

/-- A propagation step with the weights applied on the edges: every summand times the product of the weight at the
    edge's source and the weight at its target read through `idxT'` (clamped). -/
def propR (dis : (⟨1, ![100000]⟩ : Shape).Idx → EReal) (idxS idxT idxT' : IVec ⟨2, ![900000, 1]⟩ 32)
    (h : Fin 100000 → Fin 256 → EReal) (n : Fin 100000) (c : Fin 256) : EReal :=
  zeroW + ∑ e ∈ into idxT n, h (rowAt idxS e) c * (dis (ix1 (rowAt idxS e)) * dis (ix1 (rowAt idxT' e)))

/-- Bias, rectifier and the next linear map: row `i` of `max (p + b) 0` times column `c` of `w`. -/
def hidden {C : ℕ} (b : (⟨1, ![256]⟩ : Shape).Idx → EReal) (w : (⟨2, ![256, C]⟩ : Shape).Idx → EReal)
    (p : Fin 100000 → Fin 256 → EReal) (i : Fin 100000) (c : Fin C) : EReal :=
  ∑ k : Fin 256, max (p i k + b (ix1 k)) zeroW * w (ix2 k c)

/-- The logarithm of the softmax of one row of 64 logits, computed below the row's maximum. -/
def logSoftmaxRow (L : Fin 64 → EReal) (c : Fin 64) : EReal :=
  (L c - foldMax ninfW L) - Ideal.log (∑ k : Fin 64, Ideal.exp (L k - foldMax ninfW L))

/-- The whole network over a propagation step `prop`. -/
def outOf (prop : (Fin 100000 → Fin 256 → EReal) → Fin 100000 → Fin 256 → EReal)
    (x : (⟨2, ![100000, 256]⟩ : Shape).Idx → EReal) (w1 : (⟨2, ![256, 256]⟩ : Shape).Idx → EReal)
    (b1 : (⟨1, ![256]⟩ : Shape).Idx → EReal) (w2 : (⟨2, ![256, 256]⟩ : Shape).Idx → EReal)
    (b2 : (⟨1, ![256]⟩ : Shape).Idx → EReal) (wo : (⟨2, ![256, 64]⟩ : Shape).Idx → EReal)
    (bo : (⟨1, ![64]⟩ : Shape).Idx → EReal) (i : Fin 100000) (c : Fin 64) : EReal :=
  logSoftmaxRow (fun c' => hidden b2 wo (prop (hidden b1 w2 (prop (feat0 x w1)))) i c' + bo (ix1 c')) c

/-- The two arrangements of a propagation step agree when every edge landing on `n` reads `n` through the clamped
    target index, and every weight is a nonnegative finite number: the sum is scaled term by term, and the three
    factors of each term are regrouped. -/
theorem propK_eq_propR (dis : (⟨1, ![100000]⟩ : Shape).Idx → EReal) (idxS idxT idxT' : IVec ⟨2, ![900000, 1]⟩ 32)
    (hT : ∀ (e : Fin 900000) (n : Fin 100000), (idxT (ix2 e ⟨0, Nat.one_pos⟩)).toInt = (n.val : Int) → rowAt idxT' e = n)
    (hd : ∀ n : Fin 100000, 0 ≤ dis (ix1 n) ∧ dis (ix1 n) ≠ ⊤) :
    propK dis idxS idxT = propR dis idxS idxT idxT' := by
  funext h n c
  unfold propK propR
  rw [EReal.right_distrib_of_nonneg_of_ne_top (hd n).1 (hd n).2,
    Cert.LibERealScale.sum_mul_of_nonneg_ne_top _ _ (hd n).1 (hd n).2]
  have hz : zeroW * dis (ix1 n) = zeroW := by
    show Ideal.ofBits .f32 0x00000000#32 * _ = Ideal.ofBits .f32 0x00000000#32
    rw [Ideal.ofBits_zero_f32, zero_mul]
  rw [hz]
  refine congrArg (zeroW + ·) (Finset.sum_congr rfl fun e he => ?_)
  rw [hT e n (Finset.mem_filter.mp he).2, mul_assoc]

end Cert.Gcn

end
-- ==== Proof.Payloads.lean ====
/-
  What each kernel body stores, read at an entry of its block, on the extended reals.

  A block has 2000 rows. The three bodies load a block of rows, a weight matrix whole, a column of 2000 node weights
  (and the later two a bias row, the last one a second bias row), and store one block:
  • the first: row `p` of the loaded rows times column `q` of the matrix, times the weight of row `p`;
  • the second: the loaded rows scaled by their weights, plus the bias, rectified; that times the matrix; times the
    weight again;
  • the third: the same up to the matrix product, plus the second bias: a row of 64 logits; then each logit minus its
    row's maximum, minus the logarithm of the row's sum of exponentials of those differences.
  A change of float format is the identity here, a product into the zero accumulator is a plain sum over the 256
  contracted coordinates, and a row statistic kept as a column and spread back over the columns is that row's statistic.
-/
import proofs.«121146_j10118942949882_2_alg».proof.Proof.Gen.KernelIdeal.Skeleton
import proofs.«121146_j10118942949882_2_alg».proof.Proof.LibPlainMatmul
import proofs.«121146_j10118942949882_2_alg».proof.Proof.LibKeepdims
import proofs.«121146_j10118942949882_2_alg».proof.Proof.LibRowBroadcast
import proofs.«121146_j10118942949882_2_alg».proof.Proof.LibSoftmaxBlock
import proofs.«121146_j10118942949882_2_alg».proof.Proof.Spec
import Idealize.ShloMosaic.Lib.Pipeline.Value
import Idealize.ShloMosaic.Lib.ValueIdx

set_option maxRecDepth 16384

noncomputable section

open scoped BigOperators

namespace Cert.KernelIdeal.Payloads

open Cert.KernelIdeal Cert.KernelIdeal.Gen Idealize.ShloMosaic Idealize.ShloMosaic.ValueIdx Cert.LibMaxReduce Cert.Gcn

theorem dot256_eq : dot_S2000x256_S256x256_S2000x256_1_0_0_1_n_n = DotDims.plain 2000 256 256 := rfl
theorem dot64_eq : dot_S2000x256_S256x64_S2000x64_1_0_0_1_n_n = DotDims.plain 2000 256 64 := rfl

/-- The first body's store at `(p, q)`. -/
theorem pay0_apply (x0 : Vec Ideal S2000x256 .f32) (x1 : Vec Ideal S256x256 .f32) (x2 : Vec Ideal S2000x1 .f32)
    (p : Fin 2000) (q : Fin 256) :
    k0_pay1 (F := Ideal) x0 x1 x2 (ix2 p q) = (∑ k : Fin 256, x0 (ix2 p k) * x1 (ix2 k q)) * x2 (ix2 p 0) := by
  unfold k0_pay1
  show ((matmul (F := Ideal) dot_S2000x256_S256x256_S2000x256_1_0_0_1_n_n none (truncf (F := Ideal) .bf16 x0 bitsLt_bf16_f32)
      (truncf (F := Ideal) .bf16 x1 bitsLt_bf16_f32) (constant (F := Ideal) S2000x256 .f32 0x00000000#32) (ix2 p q) : EReal))
    * ((broadcastTo S2000x256 (shapeCast S2000x1 x2 shapeCasts_S2000x1_S2000x1) broadcasts_S2000x1_S2000x256 (ix2 p q) : EReal)) = _
  rw [dot256_eq]
  refine congrArg₂ (· * ·) ((matmul_plain_zero_apply 2000 256 256 none _ _ p q).trans rfl) ?_
  refine (Cert.LibKeepdims.broadcastTo_a1_ab_apply _ broadcasts_S2000x1_S2000x256 p q (0 : Fin 1)).trans ?_
  rw [shapeCast_self]

/-- The rectified, biased, weighted rows that the later two bodies feed their matrix product, at `(p, k)`. -/
theorem rect_apply (v0 : Vec Ideal S2000x1 .f32) (v2 : Vec Ideal S2000x256 .f32) (v6 : Vec Ideal S1x256 .f32)
    (p : Fin 2000) (k : Fin 256) :
    maximumf (F := Ideal) (addf (mulf (shapeCast S2000x256 v2 shapeCasts_S2000x256_S2000x256)
        (broadcastTo S2000x256 (shapeCast S2000x1 v0 shapeCasts_S2000x1_S2000x1) broadcasts_S2000x1_S2000x256))
        (broadcastTo S2000x256 (shapeCast S1x256 v6 shapeCasts_S1x256_S1x256) broadcasts_S1x256_S2000x256))
      (broadcast S2000x256 (Scalar.ofBits (F := Ideal) .f32 0x00000000#32)) (ix2 p k)
    = max (v2 (ix2 p k) * v0 (ix2 p 0) + v6 (ix2 0 k)) zeroW := by
  show max ((shapeCast S2000x256 v2 shapeCasts_S2000x256_S2000x256 (ix2 p k) : EReal)
      * (broadcastTo S2000x256 (shapeCast S2000x1 v0 shapeCasts_S2000x1_S2000x1) broadcasts_S2000x1_S2000x256 (ix2 p k) : EReal)
      + (broadcastTo S2000x256 (shapeCast S1x256 v6 shapeCasts_S1x256_S1x256) broadcasts_S1x256_S2000x256 (ix2 p k) : EReal)) zeroW = _
  rw [Cert.LibKeepdims.broadcastTo_a1_ab_apply _ broadcasts_S2000x1_S2000x256 p k (0 : Fin 1),
    Cert.LibRowBroadcast.broadcastTo_1b_ab_apply _ broadcasts_S1x256_S2000x256 p k (0 : Fin 1),
    shapeCast_self, shapeCast_self, shapeCast_self]

/-- The second body's store at `(p, q)`. -/
theorem pay1_apply (v0 : Vec Ideal S2000x1 .f32) (v2 : Vec Ideal S2000x256 .f32) (v6 : Vec Ideal S1x256 .f32)
    (v13 : Vec Ideal S256x256 .f32) (p : Fin 2000) (q : Fin 256) :
    k1_pay1 (F := Ideal) v0 v2 v6 v13 (ix2 p q)
      = (∑ k : Fin 256, max (v2 (ix2 p k) * v0 (ix2 p 0) + v6 (ix2 0 k)) zeroW * v13 (ix2 k q)) * v0 (ix2 p 0) := by
  unfold k1_pay1
  show ((matmul (F := Ideal) dot_S2000x256_S256x256_S2000x256_1_0_0_1_n_n none (truncf (F := Ideal) .bf16 _ bitsLt_bf16_f32)
      (truncf (F := Ideal) .bf16 v13 bitsLt_bf16_f32) (constant (F := Ideal) S2000x256 .f32 0x00000000#32) (ix2 p q) : EReal))
    * ((broadcastTo S2000x256 (shapeCast S2000x1 v0 shapeCasts_S2000x1_S2000x1) broadcasts_S2000x1_S2000x256 (ix2 p q) : EReal)) = _
  rw [dot256_eq]
  refine congrArg₂ (· * ·) ((matmul_plain_zero_apply 2000 256 256 none _ _ p q).trans ?_) ?_
  · exact Finset.sum_congr rfl fun k _ => congrArg (· * v13 (ix2 k q)) (rect_apply v0 v2 v6 p k)
  · refine (Cert.LibKeepdims.broadcastTo_a1_ab_apply _ broadcasts_S2000x1_S2000x256 p q (0 : Fin 1)).trans ?_
    rw [shapeCast_self]

/-- The logarithm of the softmax of the rows of a block of logits, as the third body computes it, at `(p, q)`. -/
theorem logSoftmax_block_apply (Lv : FVec Ideal S2000x64 .f32) (p : Fin 2000) (q : Fin 64) :
    subf (F := Ideal) (subf Lv (broadcastTo S2000x64 (shapeCast S2000x1
        (multiReduction .maximumf [1] S2000 Lv 0xFF800000#32 reduces_S2000x64_S2000 (.inl rfl) rfl) shapeCasts_S2000_S2000x1) broadcasts_S2000x1_S2000x64))
      (broadcastTo S2000x64 (log (shapeCast S2000x1
        (multiReduction .add [1] S2000 (exp (subf Lv (broadcastTo S2000x64 (shapeCast S2000x1
          (multiReduction .maximumf [1] S2000 Lv 0xFF800000#32 reduces_S2000x64_S2000 (.inl rfl) rfl) shapeCasts_S2000_S2000x1) broadcasts_S2000x1_S2000x64)))
          0x00000000#32 reduces_S2000x64_S2000 (.inl rfl) rfl) shapeCasts_S2000_S2000x1)) broadcasts_S2000x1_S2000x64) (ix2 p q)
    = logSoftmaxRow (fun c => Lv (ix2 p c)) q := by
  unfold logSoftmaxRow
  show ((Lv (ix2 p q) : EReal) - (broadcastTo S2000x64 _ broadcasts_S2000x1_S2000x64 (ix2 p q) : EReal))
      - (broadcastTo S2000x64 (log (F := Ideal) (φ := .f32) (s := S2000x1) _) broadcasts_S2000x1_S2000x64 (ix2 p q) : EReal) = _
  rw [Cert.LibSoftmaxBlock.rowMax_spread_apply Lv 0xFF800000#32 reduces_S2000x64_S2000 (.inl rfl) rfl shapeCasts_S2000_S2000x1 broadcasts_S2000x1_S2000x64 p q,
    Cert.LibKeepdims.broadcastTo_a1_ab_apply _ broadcasts_S2000x1_S2000x64 p q (0 : Fin 1)]
  refine congrArg (fun z : EReal => (Lv (ix2 p q) - foldMax ninfW fun k => Lv (ix2 p k)) - Ideal.log z) ?_
  refine (Cert.LibKeepdims.shapeCast_a_a1_apply _ shapeCasts_S2000_S2000x1 p (0 : Fin 1)).trans ?_
  refine (Cert.LibKeepdims.multiReduction_add_lastAxis_apply _ 0x00000000#32 reduces_S2000x64_S2000 (.inl rfl) rfl p).trans ?_
  exact Finset.sum_congr rfl fun k _ =>
    Cert.LibSoftmaxBlock.expBelowRowMax_apply Lv 0xFF800000#32 reduces_S2000x64_S2000 (.inl rfl) rfl shapeCasts_S2000_S2000x1 broadcasts_S2000x1_S2000x64 p k

/-- The third body's logits at `(p, c)`. -/
theorem logits_apply (v0 : Vec Ideal S2000x1 .f32) (v2 : Vec Ideal S2000x256 .f32) (v6 : Vec Ideal S1x256 .f32)
    (v13 : Vec Ideal S256x64 .f32) (v16 : Vec Ideal S1x64 .f32) (p : Fin 2000) (c : Fin 64) :
    addf (F := Ideal) (matmul (F := Ideal) dot_S2000x256_S256x64_S2000x64_1_0_0_1_n_n none
        (truncf (F := Ideal) .bf16 (maximumf (F := Ideal) (addf (mulf (shapeCast S2000x256 v2 shapeCasts_S2000x256_S2000x256)
          (broadcastTo S2000x256 (shapeCast S2000x1 v0 shapeCasts_S2000x1_S2000x1) broadcasts_S2000x1_S2000x256))
          (broadcastTo S2000x256 (shapeCast S1x256 v6 shapeCasts_S1x256_S1x256) broadcasts_S1x256_S2000x256))
          (broadcast S2000x256 (Scalar.ofBits (F := Ideal) .f32 0x00000000#32))) bitsLt_bf16_f32)
        (truncf (F := Ideal) .bf16 v13 bitsLt_bf16_f32) (constant (F := Ideal) S2000x64 .f32 0x00000000#32))
      (broadcastTo S2000x64 (shapeCast S1x64 v16 shapeCasts_S1x64_S1x64) broadcasts_S1x64_S2000x64) (ix2 p c)
    = (∑ k : Fin 256, max (v2 (ix2 p k) * v0 (ix2 p 0) + v6 (ix2 0 k)) zeroW * v13 (ix2 k c)) + v16 (ix2 0 c) := by
  show ((matmul (F := Ideal) dot_S2000x256_S256x64_S2000x64_1_0_0_1_n_n none _ _ (constant (F := Ideal) S2000x64 .f32 0x00000000#32) (ix2 p c) : EReal))
    + ((broadcastTo S2000x64 (shapeCast S1x64 v16 shapeCasts_S1x64_S1x64) broadcasts_S1x64_S2000x64 (ix2 p c) : EReal)) = _
  rw [dot64_eq]
  refine congrArg₂ (· + ·) ((matmul_plain_zero_apply 2000 256 64 none _ _ p c).trans ?_) ?_
  · exact Finset.sum_congr rfl fun k _ => congrArg (· * v13 (ix2 k c)) (rect_apply v0 v2 v6 p k)
  · refine (Cert.LibRowBroadcast.broadcastTo_1b_ab_apply _ broadcasts_S1x64_S2000x64 p c (0 : Fin 1)).trans ?_
    rw [shapeCast_self]

/-- The third body's store at `(p, q)`. -/
theorem pay2_apply (v0 : Vec Ideal S2000x1 .f32) (v2 : Vec Ideal S2000x256 .f32) (v6 : Vec Ideal S1x256 .f32)
    (v13 : Vec Ideal S256x64 .f32) (v16 : Vec Ideal S1x64 .f32) (p : Fin 2000) (q : Fin 64) :
    k2_pay1 (F := Ideal) v0 v2 v6 v13 v16 (ix2 p q)
      = logSoftmaxRow (fun c => (∑ k : Fin 256, max (v2 (ix2 p k) * v0 (ix2 p 0) + v6 (ix2 0 k)) zeroW * v13 (ix2 k c)) + v16 (ix2 0 c)) q := by
  unfold k2_pay1
  refine (logSoftmax_block_apply _ p q).trans ?_
  exact congrArg (fun L : Fin 64 → EReal => logSoftmaxRow L q) (funext fun c => logits_apply v0 v2 v6 v13 v16 p c)

end Cert.KernelIdeal.Payloads

end
-- ==== Proof.Region0.lean ====
/-
  The first launch: what its output array holds after the run, as one function of the arrays it was entered with.

  The grid has 50 points. Point `t` stages rows `2000·t … 2000·t + 1999` of the feature array and of the column of
  node weights, the weight matrix whole, computes the block of the output for those rows and writes it back to rows
  `2000·t …` of the output array. Every row of the output lies in exactly the block of point `row / 2000`, so after
  the last point the output array is, entry by entry, (row `i` of the features times column `c` of the matrix) times
  the weight of node `i`.
-/
import proofs.«121146_j10118942949882_2_alg».proof.Proof.Gen.KernelIdeal.Frame
import proofs.«121146_j10118942949882_2_alg».proof.Proof.Payloads

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The output array's contents: entry `(i, c)` from the feature array `x`, the matrix `w` and the weight column `d`. -/
def G (x : S100000x256.Idx → EReal) (w : S256x256.Idx → EReal) (d : S100000x1.Idx → EReal) : S100000x256.Idx → EReal :=
  fun j => (∑ k : Fin 256, x (ix2 (j 0 : Fin 100000) k) * w (ix2 k (j 1 : Fin 256))) * d (ix2 (j 0 : Fin 100000) (0 : Fin 1))

/-- The printed index maps over the grid: the row windows sit at block `t`, the matrix at block `0`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s blocks is row `2000·t + p` of the arrays. -/
def rowOfPt (t : Fin 50) (p : Fin 2000) : Fin 100000 := ⟨t.val * 2000 + p.val, by omega⟩

/-- The feature block of point `t` at `(p, k)`. -/
theorem blk_rows (c : Dev nD) (t : Fin cfg0.N) (p : Fin 2000) (k : Fin 256) :
    iblk0 V c 0 t (ix2 p k) = V c main_arg0 (ix2 (rowOfPt t p) k) := by
  obtain ⟨e0, e1, -⟩ := idx_facts t
  show V c main_arg0 (((cfg0.win 0).blk t).view.emb (ix2 p k)) = V c main_arg0 (ix2 (rowOfPt t p) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- The matrix block of any point is the matrix. -/
theorem blk_mat (c : Dev nD) (t : Fin cfg0.N) (k : Fin 256) (q : Fin 256) :
    iblk0 V c 1 t (ix2 k q) = V c main_arg2 (ix2 k q) := by
  obtain ⟨-, -, e0, e1, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 256 + 1 * q.val = q.val; omega

/-- The weight block of point `t` at `(p, u)`. -/
theorem blk_wts (c : Dev nD) (t : Fin cfg0.N) (p : Fin 2000) (u : Fin 1) :
    iblk0 V c 2 t (ix2 p u) = V c main_v12 (ix2 (rowOfPt t p) u) := by
  obtain ⟨-, -, -, -, e0, e1, -⟩ := idx_facts t
  show V c main_v12 (((cfg0.win 2).blk t).view.emb (ix2 p u)) = V c main_v12 (ix2 (rowOfPt t p) u)
  refine congrArg (V c main_v12) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * u.val = u.val; omega

/-- Entry `(p, q)` of point `t`'s output block is entry `(2000·t + p, q)` of the output array. -/
theorem emb_out (t : Fin cfg0.N) (p : Fin 2000) (q : Fin 256) :
    ((cfg0.win 3).blk t).view.emb (ix2 p q) = ix2 (rowOfPt t p) q := by
  obtain ⟨-, -, -, -, -, -, e0, e1⟩ := idx_facts t
  refine funext fun a => Fin.ext ?_
  match a with
  | ⟨0, _⟩ => show win0_3.index t (0 : Fin 2) * 2000 + 1 * p.val = t.val * 2000 + p.val; omega
  | ⟨1, _⟩ => show win0_3.index t (1 : Fin 2) * 256 + 1 * q.val = q.val; omega

/-- What point `t` writes back is block `t` of `G` of the arrays the launch was entered with. -/
theorem flushed_eq (c : Dev nD) (t : Fin cfg0.N) :
    (dat0 V c).flushed 3 t = ((cfg0.win 3).blk t).view.read (Elt Ideal) (G (V c main_arg0) (V c main_arg2) (V c main_v12)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S2000x1) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = G (V c main_arg0) (V c main_arg2) (V c main_v12) (((cfg0.win 3).blk t).view.emb (ix2 p q))
  rw [emb_out t p q]
  refine (Cert.KernelIdeal.Payloads.pay0_apply (iblk0 V c 0 t) (iblk0 V c 1 t) (iblk0 V c 2 t) p q).trans ?_
  refine congrArg₂ (fun (a b : EReal) => a * b) (Finset.sum_congr rfl fun k _ => ?_) (blk_wts V c t p (0 : Fin 1))
  exact congrArg₂ (fun (a b : EReal) => a * b) (blk_rows V c t p k) (blk_mat V c t k q)

/-- An index of the output array is in point `t`'s block iff each coordinate is in the block's range. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v13).slice (win0_3.rect t)).set ↔ _
  rw [View.set_slice_whole, Rect.mem_set_unit]
  exact Iff.rfl

/-- Every entry of the output array is in the block of the point `row / 2000`. -/
theorem cover (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  let t : Fin cfg0.N := ⟨(i 0).val / 2000, by show (i 0).val / 2000 < 50; omega⟩
  obtain ⟨-, -, -, -, -, -, e0, e1⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the launch. -/
theorem final (c : Dev nD) :
    (dat0 V c).arrAt 3 cfg0.N = G (V c main_arg0) (V c main_arg2) (V c main_v12) :=
  (dat0 V c).arrAt_eq_of_cover 3 (G (V c main_arg0) (V c main_arg2) (V c main_v12)) (fun t _ => flushed_eq V c t) cover

end Cert.KernelIdeal.Region0

end
-- ==== Proof.Region1.lean ====
/-
  The second launch: what its output array holds after the run, as one function of the arrays it was entered with.

  The grid has 50 points. Point `t` stages rows `2000·t … 2000·t + 1999` of the aggregated features and of the column
  of node weights, the weight matrix and the bias row whole, and writes its block back to the same rows of the output
  array. Every row of the output lies in the block of the point `row / 2000`, so after the last point the output array
  is, entry by entry: the aggregated row `i` scaled by the weight of node `i`, plus the bias, rectified; that row times
  column `c` of the matrix; times the weight of node `i` again.
-/
import proofs.«121146_j10118942949882_2_alg».proof.Proof.Gen.KernelIdeal.Frame
import proofs.«121146_j10118942949882_2_alg».proof.Proof.Payloads

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The output array's contents: entry `(i, c)` from the aggregated features `a`, the matrix `w`, the bias row `b` and
    the weight column `d`. -/
def G (a : S100000x256.Idx → EReal) (w : S256x256.Idx → EReal) (b : S1x256.Idx → EReal) (d : S100000x1.Idx → EReal) :
    S100000x256.Idx → EReal :=
  fun j => (∑ k : Fin 256, max (a (ix2 (j 0 : Fin 100000) k) * d (ix2 (j 0 : Fin 100000) (0 : Fin 1)) + b (ix2 (0 : Fin 1) k)) zeroW
      * w (ix2 k (j 1 : Fin 256))) * d (ix2 (j 0 : Fin 100000) (0 : Fin 1))

/-- The printed index maps over the grid: the row windows sit at block `t`, the whole-array windows at block `0`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of point `t`'s blocks is row `2000·t + p` of the arrays. -/
def rowOfPt (t : Fin 50) (p : Fin 2000) : Fin 100000 := ⟨t.val * 2000 + p.val, by omega⟩

/-- The block of aggregated rows of point `t` at `(p, k)`. -/
theorem blk_rows (c : Dev nD) (t : Fin cfg1.N) (p : Fin 2000) (k : Fin 256) :
    iblk1 V c 0 t (ix2 p k) = V c main_v23 (ix2 (rowOfPt t p) k) := by
  obtain ⟨e0, e1, -⟩ := idx_facts t
  show V c main_v23 (((cfg1.win 0).blk t).view.emb (ix2 p k)) = V c main_v23 (ix2 (rowOfPt t p) k)
  refine congrArg (V c main_v23) (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

/-- The matrix block of any point is the matrix. -/
theorem blk_mat (c : Dev nD) (t : Fin cfg1.N) (k : Fin 256) (q : Fin 256) :
    iblk1 V c 1 t (ix2 k q) = V c main_arg4 (ix2 k q) := by
  obtain ⟨-, -, e0, e1, -⟩ := idx_facts t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 256 + 1 * k.val = k.val; omega
  | ⟨1, _⟩ => show win1_1.index t (1 : Fin 2) * 256 + 1 * q.val = q.val; omega

/-- The bias block of any point is the bias row. -/
theorem blk_bias (c : Dev nD) (t : Fin cfg1.N) (u : Fin 1) (k : Fin 256) :
    iblk1 V c 2 t (ix2 u k) = V c main_v24 (ix2 u k) := by
  obtain ⟨-, -, -, -, e0, e1, -⟩ := idx_facts t
  show V c main_v24 (((cfg1.win 2).blk t).view.emb (ix2 u k)) = V c main_v24 (ix2 u k)
  refine congrArg (V c main_v24) (funext fun a => Fin.ext ?_)
  match a with
  | ⟨0, _⟩ => show win1_2.index t (0 : Fin 2) * 1 + 1 * u.val = u.val; omega
  | ⟨1, _⟩ => show win1_2.index t (1 : Fin 2) * 256 + 1 * k.val = k.val; omega

/-- The weight block of point `t` at `(p, u)`. -/
theorem blk_wts (c : Dev nD) (t : Fin cfg1.N) (p : Fin 2000) (u : Fin 1) :
    iblk1 V c 3 t (ix2 p u) = V c main_v12 (ix2 (rowOfPt t p) u) := by
  obtain ⟨-, -, -, -, -, -, e0, e1, -⟩ := idx_facts t
  show V c main_v12 (((cfg1.win 3).blk t).view.emb (ix2 p u)) = V c main_v12 (ix2 (rowOfPt t p) u)
  refine congrArg (V c main_v12) (funext fun a => Fin.ext ?_)
  match a with
  | ⟨0, _⟩ => show win1_3.index t (0 : Fin 2) * 2000 + 1 * p.val = t.val * 2000 + p.val; omega
  | ⟨1, _⟩ => show win1_3.index t (1 : Fin 2) * 1 + 1 * u.val = u.val; omega

/-- Entry `(p, q)` of point `t`'s output block is entry `(2000·t + p, q)` of the output array. -/
theorem emb_out (t : Fin cfg1.N) (p : Fin 2000) (q : Fin 256) :
    ((cfg1.win 4).blk t).view.emb (ix2 p q) = ix2 (rowOfPt t p) q := by
  obtain ⟨-, -, -, -, -, -, -, -, e0, e1⟩ := idx_facts t
  refine funext fun a => Fin.ext ?_
  match a with
  | ⟨0, _⟩ => show win1_4.index t (0 : Fin 2) * 2000 + 1 * p.val = t.val * 2000 + p.val; omega
  | ⟨1, _⟩ => show win1_4.index t (1 : Fin 2) * 256 + 1 * q.val = q.val; omega

/-- What point `t` writes back is block `t` of `G` of the arrays the launch was entered with. -/
theorem flushed_eq (c : Dev nD) (t : Fin cfg1.N) :
    (dat1 V c).flushed 4 t
      = ((cfg1.win 4).blk t).view.read (Elt Ideal) (G (V c main_v23) (V c main_arg4) (V c main_v24) (V c main_v12)) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S2000x1) hz,
    View.ld_unit_zero (S := S1x256) hz]
  funext j
  obtain ⟨p, q, rfl⟩ : ∃ (p : Fin 2000) (q : Fin 256), j = ix2 p q := ⟨j 0, j 1, eq_ix2 j⟩
  show k1_pay1 (F := Ideal) (iblk1 V c 3 t) (iblk1 V c 0 t) (iblk1 V c 2 t) (iblk1 V c 1 t) (ix2 p q)
    = G (V c main_v23) (V c main_arg4) (V c main_v24) (V c main_v12) (((cfg1.win 4).blk t).view.emb (ix2 p q))
  rw [emb_out t p q]
  refine (Cert.KernelIdeal.Payloads.pay1_apply (iblk1 V c 3 t) (iblk1 V c 0 t) (iblk1 V c 2 t) (iblk1 V c 1 t) p q).trans ?_
  refine congrArg₂ (fun (a b : EReal) => a * b) (Finset.sum_congr rfl fun k _ => ?_) (blk_wts V c t p (0 : Fin 1))
  refine congrArg₂ (fun (a b : EReal) => a * b) ?_ (blk_mat V c t k q)
  refine congrArg (fun z : EReal => max z zeroW) ?_
  exact congrArg₂ (fun (a b : EReal) => a + b)
    (congrArg₂ (fun (a b : EReal) => a * b) (blk_rows V c t p k) (blk_wts V c t p (0 : Fin 1))) (blk_bias V c t (0 : Fin 1) k)

/-- An index of the output array is in point `t`'s block iff each coordinate is in the block's range. -/
theorem mem_blk (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v25).slice (win1_4.rect t)).set ↔ _
  rw [View.set_slice_whole, Rect.mem_set_unit]
  exact Iff.rfl

/-- Every entry of the output array is in the block of the point `row / 2000`. -/
theorem cover (i : S100000x256.Idx) : ∃ t : Fin cfg1.N, (cfg1.win 4).flush t = true ∧ i ∈ ((cfg1.win 4).blk t).view.set := by
  have hi0 : (i 0).val < 100000 := (i 0).isLt
  have hi1 : (i 1).val < 256 := (i 1).isLt
  let t : Fin cfg1.N := ⟨(i 0).val / 2000, by show (i 0).val / 2000 < 50; omega⟩
  obtain ⟨-, -, -, -, -, -, -, -, e0, e1⟩ := idx_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The output array after the launch. -/
theorem final (c : Dev nD) :
    (dat1 V c).arrAt 4 cfg1.N = G (V c main_v23) (V c main_arg4) (V c main_v24) (V c main_v12) :=
  (dat1 V c).arrAt_eq_of_cover 4 (G (V c main_v23) (V c main_arg4) (V c main_v24) (V c main_v12)) (fun t _ => flushed_eq V c t) cover

end Cert.KernelIdeal.Region1

end
-- ==== Proof.Region2.lean ====
/-
  The third launch: what the result array holds after the run, as one function of the arrays it was entered with.

  The grid has 50 points. Point `t` stages rows `2000·t … 2000·t + 1999` of the aggregated features and of the column
  of node weights, the last weight matrix and the two bias rows whole, and writes its block of 64 columns back to the same
  rows of the result array. Every row of the result lies in the block of the point `row / 2000`, so after the last point
  the result is, row by row: the aggregated row scaled by the node's weight, plus the bias, rectified; times the matrix,
  plus the second bias: 64 logits; and of those the logarithm of the softmax.
-/
import proofs.«121146_j10118942949882_2_alg».proof.Proof.Gen.KernelIdeal.Frame
import proofs.«121146_j10118942949882_2_alg».proof.Proof.Payloads

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Row `i`'s 64 logits from the aggregated features `a`, the matrix `w`, the two bias rows `b`, `bo` and the weight
    column `d`. -/
def logitsOf (a : S100000x256.Idx → EReal) (w : S256x64.Idx → EReal) (b : S1x256.Idx → EReal) (d : S100000x1.Idx → EReal)
    (bo : S1x64.Idx → EReal) (i : Fin 100000) (c : Fin 64) : EReal :=
  (∑ k : Fin 256, max (a (ix2 i k) * d (ix2 i (0 : Fin 1)) + b (ix2 (0 : Fin 1) k)) zeroW * w (ix2 k c)) + bo (ix2 (0 : Fin 1) c)

/-- The result array's contents: the logarithm of the softmax of each row's logits. -/
def G (a : S100000x256.Idx → EReal) (w : S256x64.Idx → EReal) (b : S1x256.Idx → EReal) (d : S100000x1.Idx → EReal)
    (bo : S1x64.Idx → EReal) : S100000x64.Idx → EReal :=
  fun j => logSoftmaxRow (logitsOf a w b d bo (j 0 : Fin 100000)) (j 1 : Fin 64)

/-- The printed index maps over the grid: the row windows sit at block `t`, the whole-array windows at block `0`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s blocks is row `2000·t + p` of the arrays. -/
def rowOfPt (t : Fin 50) (p : Fin 2000) : Fin 100000 := ⟨t.val * 2000 + p.val, by omega⟩

/-- The block of aggregated rows of point `t` at `(p, k)`. -/
theorem blk_rows (c : Dev nD) (t : Fin cfg2.N) (p : Fin 2000) (k : Fin 256) :
    iblk2 V c 0 t (ix2 p k) = V c main_v35 (ix2 (rowOfPt t p) k) := by
  obtain ⟨e0, e1, -⟩ := idx_facts t
  show V c main_v35 (((cfg2.win 0).blk t).view.emb (ix2 p k)) = V c main_v35 (ix2 (rowOfPt t p) k)
  refine congrArg (V c main_v35) (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

/-- The matrix block of any point is the matrix. -/
theorem blk_mat (c : Dev nD) (t : Fin cfg2.N) (k : Fin 256) (q : Fin 64) :
    iblk2 V c 1 t (ix2 k q) = V c main_arg6 (ix2 k q) := by
  obtain ⟨-, -, e0, e1, -⟩ := idx_facts t
  show V c main_arg6 (((cfg2.win 1).blk t).view.emb (ix2 k q)) = V c main_arg6 (ix2 k q)
  refine congrArg (V c main_arg6) (funext fun a => Fin.ext ?_)
  match a with
  | ⟨0, _⟩ => show win2_1.index t (0 : Fin 2) * 256 + 1 * k.val = k.val; omega
  | ⟨1, _⟩ => show win2_1.index t (1 : Fin 2) * 64 + 1 * q.val = q.val; omega

/-- The first bias block of any point is the bias row. -/
theorem blk_bias (c : Dev nD) (t : Fin cfg2.N) (u : Fin 1) (k : Fin 256) :
    iblk2 V c 2 t (ix2 u k) = V c main_v36 (ix2 u k) := by
  obtain ⟨-, -, -, -, e0, e1, -⟩ := idx_facts t
  show V c main_v36 (((cfg2.win 2).blk t).view.emb (ix2 u k)) = V c main_v36 (ix2 u k)
  refine congrArg (V c main_v36) (funext fun a => Fin.ext ?_)
  match a with
  | ⟨0, _⟩ => show win2_2.index t (0 : Fin 2) * 1 + 1 * u.val = u.val; omega
  | ⟨1, _⟩ => show win2_2.index t (1 : Fin 2) * 256 + 1 * k.val = k.val; omega

/-- The weight block of point `t` at `(p, u)`. -/
theorem blk_wts (c : Dev nD) (t : Fin cfg2.N) (p : Fin 2000) (u : Fin 1) :
    iblk2 V c 3 t (ix2 p u) = V c main_v12 (ix2 (rowOfPt t p) u) := by
  obtain ⟨-, -, -, -, -, -, e0, e1, -⟩ := idx_facts t
  show V c main_v12 (((cfg2.win 3).blk t).view.emb (ix2 p u)) = V c main_v12 (ix2 (rowOfPt t p) u)
  refine congrArg (V c main_v12) (funext fun a => Fin.ext ?_)
  match a with
  | ⟨0, _⟩ => show win2_3.index t (0 : Fin 2) * 2000 + 1 * p.val = t.val * 2000 + p.val; omega
  | ⟨1, _⟩ => show win2_3.index t (1 : Fin 2) * 1 + 1 * u.val = u.val; omega

/-- The second bias block of any point is the second bias row. -/
theorem blk_bo (c : Dev nD) (t : Fin cfg2.N) (u : Fin 1) (q : Fin 64) :
    iblk2 V c 4 t (ix2 u q) = V c main_v37 (ix2 u q) := by
  obtain ⟨-, -, -, -, -, -, -, -, e0, e1, -⟩ := idx_facts t
  show V c main_v37 (((cfg2.win 4).blk t).view.emb (ix2 u q)) = V c main_v37 (ix2 u q)
  refine congrArg (V c main_v37) (funext fun a => Fin.ext ?_)
  match a with
  | ⟨0, _⟩ => show win2_4.index t (0 : Fin 2) * 1 + 1 * u.val = u.val; omega
  | ⟨1, _⟩ => show win2_4.index t (1 : Fin 2) * 64 + 1 * q.val = q.val; omega

/-- Entry `(p, q)` of point `t`'s result block is entry `(2000·t + p, q)` of the result array. -/
theorem emb_out (t : Fin cfg2.N) (p : Fin 2000) (q : Fin 64) :
    ((cfg2.win 5).blk t).view.emb (ix2 p q) = ix2 (rowOfPt t p) q := by
  obtain ⟨-, -, -, -, -, -, -, -, -, -, e0, e1⟩ := idx_facts t
  refine funext fun a => Fin.ext ?_
  match a with
  | ⟨0, _⟩ => show win2_5.index t (0 : Fin 2) * 2000 + 1 * p.val = t.val * 2000 + p.val; omega
  | ⟨1, _⟩ => show win2_5.index t (1 : Fin 2) * 64 + 1 * q.val = q.val; omega

/-- What point `t` writes back is block `t` of `G` of the arrays the launch was entered with. -/
theorem flushed_eq (c : Dev nD) (t : Fin cfg2.N) :
    (dat2 V c).flushed 5 t
      = ((cfg2.win 5).blk t).view.read (Elt Ideal) (G (V c main_v35) (V c main_arg6) (V c main_v36) (V c main_v12) (V c main_v37)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x64) hz, View.ld_unit_zero (S := S2000x1) hz,
    View.ld_unit_zero (S := S1x256) hz, View.ld_unit_zero (S := S1x64) hz]
  funext j
  obtain ⟨p, q, rfl⟩ : ∃ (p : Fin 2000) (q : Fin 64), j = ix2 p q := ⟨j 0, j 1, eq_ix2 j⟩
  show k2_pay1 (F := Ideal) (iblk2 V c 3 t) (iblk2 V c 0 t) (iblk2 V c 2 t) (iblk2 V c 1 t) (iblk2 V c 4 t) (ix2 p q)
    = G (V c main_v35) (V c main_arg6) (V c main_v36) (V c main_v12) (V c main_v37) (((cfg2.win 5).blk t).view.emb (ix2 p q))
  rw [emb_out t p q]
  refine (Cert.KernelIdeal.Payloads.pay2_apply (iblk2 V c 3 t) (iblk2 V c 0 t) (iblk2 V c 2 t) (iblk2 V c 1 t) (iblk2 V c 4 t) p q).trans ?_
  refine congrArg (fun L : Fin 64 → EReal => logSoftmaxRow L q) (funext fun c' => ?_)
  refine congrArg₂ (fun (a b : EReal) => a + b) (Finset.sum_congr rfl fun k _ => ?_) (blk_bo V c t (0 : Fin 1) c')
  refine congrArg₂ (fun (a b : EReal) => a * b) ?_ (blk_mat V c t k c')
  refine congrArg (fun z : EReal => max z zeroW) ?_
  exact congrArg₂ (fun (a b : EReal) => a + b)
    (congrArg₂ (fun (a b : EReal) => a * b) (blk_rows V c t p k) (blk_wts V c t p (0 : Fin 1))) (blk_bias V c t (0 : Fin 1) k)

/-- An index of the result array is in point `t`'s block iff each coordinate is in the block's range. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v38).slice (win2_5.rect t)).set ↔ _
  rw [View.set_slice_whole, Rect.mem_set_unit]
  exact Iff.rfl

/-- Every entry of the result array is in the block of the point `row / 2000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨-, -, -, -, -, -, -, -, -, -, e0, e1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The result array after the launch. -/
theorem final (c : Dev nD) :
    (dat2 V c).arrAt 5 cfg2.N = G (V c main_v35) (V c main_arg6) (V c main_v36) (V c main_v12) (V c main_v37) :=
  (dat2 V c).arrAt_eq_of_cover 5 (G (V c main_v35) (V c main_arg6) (V c main_v36) (V c main_v12) (V c main_v37))
    (fun t _ => flushed_eq V c t) cover

end Cert.KernelIdeal.Region2

end
-- ==== Proof.Transport.lean ====
/-
  The contents of the buffers each launch is entered with, and the result buffer at the end of the run, as functions of
  the argument arrays.

  Before the first launch the host computes, from the edge list, the vector of source indices and the vector of target
  indices (the given 800000 followed by the loops), the number of edges landing on each node, and its reciprocal square
  root as a column: the node weights. Nothing later writes these buffers or the arguments, so every later stretch and
  launch finds them unchanged. Between two launches the host gathers the rows of the previous launch's output at the
  source indices (wrapped, then clamped) and adds them into the rows their target indices name: `spread`. A bias vector is
  passed to a launch as a row. Chaining these, the result buffer after the run is the third launch's function of the
  spread second launch's output, which is that launch's function of the spread first launch's output.
-/
import proofs.«121146_j10118942949882_2_alg».proof.Proof.Region0
import proofs.«121146_j10118942949882_2_alg».proof.Proof.Region1
import proofs.«121146_j10118942949882_2_alg».proof.Proof.Region2
import Idealize.ShloMosaic.Lib.StableHlo.Run

set_option maxRecDepth 16384

noncomputable section

open scoped BigOperators

namespace Cert.KernelIdeal.Transport

open Cert.KernelIdeal Cert.KernelIdeal.Gen Idealize.ShloMosaic Idealize.ShloMosaic.TcCoe Idealize.ShloMosaic.ValueIdx Idealize.SL.Sem
open Idealize.ShloMosaic.StableHlo

/-- A buffer no operation of a stretch writes holds after the stretch what it held before. -/
macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The host's values -/

/-- The source indices of the 900000 edges: row 0 of the edge list followed by the loops. -/
def srcK (a1 : S2x800000.Idx → BitVec 32) : S900000.Idx → BitVec 32 :=
  concatenate S900000 0 [⟨S800000, shapeCast S800000 (extractStridedSlice S1x800000 ![0, 0] a1 slices_S2x800000_S1x800000_0_0) shapeCasts_S1x800000_S800000⟩,
    ⟨S100000, iotaInDim S100000 32 0⟩] concatenates_S800000_S100000_S900000_d0

/-- The target indices of the 900000 edges: row 1 of the edge list followed by the loops. -/
def dstK (a1 : S2x800000.Idx → BitVec 32) : S900000.Idx → BitVec 32 :=
  concatenate S900000 0 [⟨S800000, shapeCast S800000 (extractStridedSlice S1x800000 ![1, 0] a1 slices_S2x800000_S1x800000_1_0) shapeCasts_S1x800000_S800000⟩,
    ⟨S100000, iotaInDim S100000 32 0⟩] concatenates_S800000_S100000_S900000_d0

/-- The target indices as the column a scatter takes. -/
def idxT (a1 : S2x800000.Idx → BitVec 32) : IVec S900000x1 32 :=
  broadcastInDim S900000x1 ![0] bcast_S900000_S900000x1_0 (dstK a1)

/-- The source indices, a negative one wrapped by the number of nodes, as the column a gather takes. -/
def idxS (a1 : S2x800000.Idx → BitVec 32) : IVec S900000x1 32 :=
  broadcastInDim S900000x1 ![0] bcast_S900000_S900000x1_0
    (select (cmpi .slt (srcK a1) (broadcastInDim S900000 ![] bcast_S_S900000 (constantI S_ 32 0#32)))
      (addi (srcK a1) (broadcastInDim S900000 ![] bcast_S_S900000 (constantI S_ 32 100000#32))) (srcK a1))

/-- The node weights: the reciprocal square root of the number of edges landing on each node. -/
def disK (a1 : S2x800000.Idx → BitVec 32) : S100000.Idx → EReal :=
  Host.rsqrt (F := Ideal) (Host.scatterAdd (F := Ideal) scatter_S100000_S900000x1_S900000_n_0_0_1
    (broadcastInDim S100000 ![] bcast_S_S100000 (constant (F := Ideal) S_ .f32 0x00000000#32)) (idxT a1)
    (broadcastInDim S900000 ![] bcast_S_S900000 (constant (F := Ideal) S_ .f32 0x3F800000#32)))

/-- The node weights as a column. -/
def disCol (a1 : S2x800000.Idx → BitVec 32) : S100000x1.Idx → EReal :=
  shapeCast S100000x1 (disK a1) shapeCasts_S100000_S100000x1

/-- The rows of `y` gathered at the edges' sources and added into the rows the edges' targets name. -/
def spread (a1 : S2x800000.Idx → BitVec 32) (y : S100000x256.Idx → EReal) : S100000x256.Idx → EReal :=
  Host.scatterAdd (F := Ideal) scatter_S100000x256_S900000x1_S900000x256_1_0_0_1
    (broadcastInDim S100000x256 ![] bcast_S_S100000x256 (constant (F := Ideal) S_ .f32 0x00000000#32)) (idxT a1)
    (Host.gather gather_S100000x256_S900000x1_S900000x256_1_0_n_n_0_1_1256 y (idxS a1))

variable (m : (ℓ : Loc nD τ sig) → Buf (Elt Ideal) ℓ) (ρ : Dev nD → PrngReg) (c : Dev nD)

/-- The edge list as launched. -/
abbrev edges : S2x800000.Idx → BitVec 32 := m ((c.tc : Thread nD τ).loc main_arg1)

/-! ## Before the first launch -/

theorem W1_arg0 : W1 m ρ c (Proc.devRef .tc main_arg0) = m ((c.tc : Thread nD τ).loc main_arg0) := by
  show StableHlo.after hostOps0 (W0 m ρ c) (Proc.devRef .tc main_arg0) = W0 m ρ c (Proc.devRef .tc main_arg0)
  kept_by hostOps0
theorem W1_arg2 : W1 m ρ c (Proc.devRef .tc main_arg2) = m ((c.tc : Thread nD τ).loc main_arg2) := by
  show StableHlo.after hostOps0 (W0 m ρ c) (Proc.devRef .tc main_arg2) = W0 m ρ c (Proc.devRef .tc main_arg2)
  kept_by hostOps0
theorem W1_arg3 : W1 m ρ c (Proc.devRef .tc main_arg3) = m ((c.tc : Thread nD τ).loc main_arg3) := by
  show StableHlo.after hostOps0 (W0 m ρ c) (Proc.devRef .tc main_arg3) = W0 m ρ c (Proc.devRef .tc main_arg3)
  kept_by hostOps0
theorem W1_arg4 : W1 m ρ c (Proc.devRef .tc main_arg4) = m ((c.tc : Thread nD τ).loc main_arg4) := by
  show StableHlo.after hostOps0 (W0 m ρ c) (Proc.devRef .tc main_arg4) = W0 m ρ c (Proc.devRef .tc main_arg4)
  kept_by hostOps0
theorem W1_arg5 : W1 m ρ c (Proc.devRef .tc main_arg5) = m ((c.tc : Thread nD τ).loc main_arg5) := by
  show StableHlo.after hostOps0 (W0 m ρ c) (Proc.devRef .tc main_arg5) = W0 m ρ c (Proc.devRef .tc main_arg5)
  kept_by hostOps0
theorem W1_arg6 : W1 m ρ c (Proc.devRef .tc main_arg6) = m ((c.tc : Thread nD τ).loc main_arg6) := by
  show StableHlo.after hostOps0 (W0 m ρ c) (Proc.devRef .tc main_arg6) = W0 m ρ c (Proc.devRef .tc main_arg6)
  kept_by hostOps0
theorem W1_arg7 : W1 m ρ c (Proc.devRef .tc main_arg7) = m ((c.tc : Thread nD τ).loc main_arg7) := by
  show StableHlo.after hostOps0 (W0 m ρ c) (Proc.devRef .tc main_arg7) = W0 m ρ c (Proc.devRef .tc main_arg7)
  kept_by hostOps0

theorem W1_v3 : (W1 m ρ c (Proc.devRef .tc main_v3) : S900000.Idx → BitVec 32) = srcK (edges m c) := by
  show StableHlo.after hostOps0 (W0 m ρ c) (Proc.devRef .tc main_v3) = _
  after_results; rfl
theorem W1_v6 : (W1 m ρ c (Proc.devRef .tc main_v6) : S900000.Idx → BitVec 32) = dstK (edges m c) := by
  show StableHlo.after hostOps0 (W0 m ρ c) (Proc.devRef .tc main_v6) = _
  after_results; rfl
theorem W1_v12 : (W1 m ρ c (Proc.devRef .tc main_v12) : S100000x1.Idx → EReal) = disCol (edges m c) := by
  show StableHlo.after hostOps0 (W0 m ρ c) (Proc.devRef .tc main_v12) = _
  after_results; rfl

/-! ## The first launch -/

theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)
theorem W2_v3 : (W2 m ρ c (Proc.devRef .tc main_v3) : S900000.Idx → BitVec 32) = srcK (edges m c) :=
  (W2_of_ne m ρ c main_v3 (by decide)).trans (W1_v3 m ρ c)
theorem W2_v6 : (W2 m ρ c (Proc.devRef .tc main_v6) : S900000.Idx → BitVec 32) = dstK (edges m c) :=
  (W2_of_ne m ρ c main_v6 (by decide)).trans (W1_v6 m ρ c)
theorem W2_v12 : (W2 m ρ c (Proc.devRef .tc main_v12) : S100000x1.Idx → EReal) = disCol (edges m c) :=
  ((W2_arr m ρ c 2).trans (((dat0 (V1 m ρ) c).arrAt_in 2 rfl _).trans (A_eq0 (V1 m ρ) c 2))).trans (W1_v12 m ρ c)

/-- The first launch's output: its function of the features, the first matrix and the weights. -/
def out0 : S100000x256.Idx → EReal :=
  Cert.KernelIdeal.Region0.G (m ((c.tc : Thread nD τ).loc main_arg0)) (m ((c.tc : Thread nD τ).loc main_arg2)) (disCol (edges m c))

theorem W2_v13 : (W2 m ρ c (Proc.devRef .tc main_v13) : S100000x256.Idx → EReal) = out0 m c := by
  have h0 : V1 m ρ c main_arg0 = m ((c.tc : Thread nD τ).loc main_arg0) := W1_arg0 m ρ c
  have h2 : V1 m ρ c main_arg2 = m ((c.tc : Thread nD τ).loc main_arg2) := W1_arg2 m ρ c
  have h12 : (V1 m ρ c main_v12 : S100000x1.Idx → EReal) = disCol (edges m c) := W1_v12 m ρ c
  refine (W2_arr m ρ c 3).trans ((Cert.KernelIdeal.Region0.final (V1 m ρ) c).trans ?_)
  rw [h0, h2, h12]; rfl

/-! ## The stretch before the second launch -/

theorem W3_arg4 : W3 m ρ c (Proc.devRef .tc main_arg4) = m ((c.tc : Thread nD τ).loc main_arg4) :=
  (show StableHlo.after hostOps1 (W2 m ρ c) (Proc.devRef .tc main_arg4) = W2 m ρ c (Proc.devRef .tc main_arg4) by kept_by hostOps1).trans (W2_arg4 m ρ c)
theorem W3_arg5 : W3 m ρ c (Proc.devRef .tc main_arg5) = m ((c.tc : Thread nD τ).loc main_arg5) :=
  (show StableHlo.after hostOps1 (W2 m ρ c) (Proc.devRef .tc main_arg5) = W2 m ρ c (Proc.devRef .tc main_arg5) by kept_by hostOps1).trans (W2_arg5 m ρ c)
theorem W3_arg6 : W3 m ρ c (Proc.devRef .tc main_arg6) = m ((c.tc : Thread nD τ).loc main_arg6) :=
  (show StableHlo.after hostOps1 (W2 m ρ c) (Proc.devRef .tc main_arg6) = W2 m ρ c (Proc.devRef .tc main_arg6) by kept_by hostOps1).trans (W2_arg6 m ρ c)
theorem W3_arg7 : W3 m ρ c (Proc.devRef .tc main_arg7) = m ((c.tc : Thread nD τ).loc main_arg7) :=
  (show StableHlo.after hostOps1 (W2 m ρ c) (Proc.devRef .tc main_arg7) = W2 m ρ c (Proc.devRef .tc main_arg7) by kept_by hostOps1).trans (W2_arg7 m ρ c)
theorem W3_v3 : (W3 m ρ c (Proc.devRef .tc main_v3) : S900000.Idx → BitVec 32) = srcK (edges m c) :=
  (show StableHlo.after hostOps1 (W2 m ρ c) (Proc.devRef .tc main_v3) = W2 m ρ c (Proc.devRef .tc main_v3) by kept_by hostOps1).trans (W2_v3 m ρ c)
theorem W3_v6 : (W3 m ρ c (Proc.devRef .tc main_v6) : S900000.Idx → BitVec 32) = dstK (edges m c) :=
  (show StableHlo.after hostOps1 (W2 m ρ c) (Proc.devRef .tc main_v6) = W2 m ρ c (Proc.devRef .tc main_v6) by kept_by hostOps1).trans (W2_v6 m ρ c)
theorem W3_v12 : (W3 m ρ c (Proc.devRef .tc main_v12) : S100000x1.Idx → EReal) = disCol (edges m c) :=
  (show StableHlo.after hostOps1 (W2 m ρ c) (Proc.devRef .tc main_v12) = W2 m ρ c (Proc.devRef .tc main_v12) by kept_by hostOps1).trans (W2_v12 m ρ c)

theorem W3_v23 : (W3 m ρ c (Proc.devRef .tc main_v23) : S100000x256.Idx → EReal) = spread (edges m c) (out0 m c) := by
  show StableHlo.after hostOps1 (W2 m ρ c) (Proc.devRef .tc main_v23) = _
  after_results
  rw [W2_v6 m ρ c, W2_v3 m ρ c, W2_v13 m ρ c]; rfl

theorem W3_v24 : (W3 m ρ c (Proc.devRef .tc main_v24) : S1x256.Idx → EReal)
    = shapeCast S1x256 (m ((c.tc : Thread nD τ).loc main_arg3)) shapeCasts_S256_S1x256 := by
  show StableHlo.after hostOps1 (W2 m ρ c) (Proc.devRef .tc main_v24) = _
  after_results
  rw [W2_arg3 m ρ c]; rfl

/-! ## The second launch -/

theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_v3 : (W4 m ρ c (Proc.devRef .tc main_v3) : S900000.Idx → BitVec 32) = srcK (edges m c) :=
  (W4_of_ne m ρ c main_v3 (by decide)).trans (W3_v3 m ρ c)
theorem W4_v6 : (W4 m ρ c (Proc.devRef .tc main_v6) : S900000.Idx → BitVec 32) = dstK (edges m c) :=
  (W4_of_ne m ρ c main_v6 (by decide)).trans (W3_v6 m ρ c)
theorem W4_v12 : (W4 m ρ c (Proc.devRef .tc main_v12) : S100000x1.Idx → EReal) = disCol (edges m c) :=
  ((W4_arr m ρ c 3).trans (((dat1 (V3 m ρ) c).arrAt_in 3 rfl _).trans (A_eq1 (V3 m ρ) c 3))).trans (W3_v12 m ρ c)

/-- The second launch's output: its function of the spread first output, the second matrix, the first bias and the
    weights. -/
def out1 : S100000x256.Idx → EReal :=
  Cert.KernelIdeal.Region1.G (spread (edges m c) (out0 m c)) (m ((c.tc : Thread nD τ).loc main_arg4))
    (shapeCast S1x256 (m ((c.tc : Thread nD τ).loc main_arg3)) shapeCasts_S256_S1x256) (disCol (edges m c))

theorem W4_v25 : (W4 m ρ c (Proc.devRef .tc main_v25) : S100000x256.Idx → EReal) = out1 m c := by
  have h0 : (V3 m ρ c main_v23 : S100000x256.Idx → EReal) = spread (edges m c) (out0 m c) := W3_v23 m ρ c
  have h1 : V3 m ρ c main_arg4 = m ((c.tc : Thread nD τ).loc main_arg4) := W3_arg4 m ρ c
  have h2 : (V3 m ρ c main_v24 : S1x256.Idx → EReal) = shapeCast S1x256 (m ((c.tc : Thread nD τ).loc main_arg3)) shapeCasts_S256_S1x256 := W3_v24 m ρ c
  have h3 : (V3 m ρ c main_v12 : S100000x1.Idx → EReal) = disCol (edges m c) := W3_v12 m ρ c
  refine (W4_arr m ρ c 4).trans ((Cert.KernelIdeal.Region1.final (V3 m ρ) c).trans ?_)
  rw [h0, h1, h2, h3]; rfl

/-! ## The stretch before the third launch -/

theorem W5_arg6 : W5 m ρ c (Proc.devRef .tc main_arg6) = m ((c.tc : Thread nD τ).loc main_arg6) :=
  (show StableHlo.after hostOps2 (W4 m ρ c) (Proc.devRef .tc main_arg6) = W4 m ρ c (Proc.devRef .tc main_arg6) by kept_by hostOps2).trans (W4_arg6 m ρ c)
theorem W5_v12 : (W5 m ρ c (Proc.devRef .tc main_v12) : S100000x1.Idx → EReal) = disCol (edges m c) :=
  (show StableHlo.after hostOps2 (W4 m ρ c) (Proc.devRef .tc main_v12) = W4 m ρ c (Proc.devRef .tc main_v12) by kept_by hostOps2).trans (W4_v12 m ρ c)

theorem W5_v35 : (W5 m ρ c (Proc.devRef .tc main_v35) : S100000x256.Idx → EReal) = spread (edges m c) (out1 m c) := by
  show StableHlo.after hostOps2 (W4 m ρ c) (Proc.devRef .tc main_v35) = _
  after_results
  rw [W4_v6 m ρ c, W4_v3 m ρ c, W4_v25 m ρ c]; rfl

theorem W5_v36 : (W5 m ρ c (Proc.devRef .tc main_v36) : S1x256.Idx → EReal)
    = shapeCast S1x256 (m ((c.tc : Thread nD τ).loc main_arg5)) shapeCasts_S256_S1x256 := by
  show StableHlo.after hostOps2 (W4 m ρ c) (Proc.devRef .tc main_v36) = _
  after_results
  rw [W4_arg5 m ρ c]; rfl

theorem W5_v37 : (W5 m ρ c (Proc.devRef .tc main_v37) : S1x64.Idx → EReal)
    = shapeCast S1x64 (m ((c.tc : Thread nD τ).loc main_arg7)) shapeCasts_S64_S1x64 := by
  show StableHlo.after hostOps2 (W4 m ρ c) (Proc.devRef .tc main_v37) = _
  after_results
  rw [W4_arg7 m ρ c]; rfl

/-! ## The third launch: the result -/

/-- THE RESULT BUFFER AFTER THE RUN: the third launch's function of the spread second output, the last matrix, the
    two remaining biases and the weights. -/
theorem result : (W6 m ρ c (Proc.devRef .tc main_v38) : S100000x64.Idx → EReal)
    = Cert.KernelIdeal.Region2.G (spread (edges m c) (out1 m c)) (m ((c.tc : Thread nD τ).loc main_arg6))
        (shapeCast S1x256 (m ((c.tc : Thread nD τ).loc main_arg5)) shapeCasts_S256_S1x256) (disCol (edges m c))
        (shapeCast S1x64 (m ((c.tc : Thread nD τ).loc main_arg7)) shapeCasts_S64_S1x64) := by
  have h0 : (V5 m ρ c main_v35 : S100000x256.Idx → EReal) = spread (edges m c) (out1 m c) := W5_v35 m ρ c
  have h1 : V5 m ρ c main_arg6 = m ((c.tc : Thread nD τ).loc main_arg6) := W5_arg6 m ρ c
  have h2 : (V5 m ρ c main_v36 : S1x256.Idx → EReal) = shapeCast S1x256 (m ((c.tc : Thread nD τ).loc main_arg5)) shapeCasts_S256_S1x256 := W5_v36 m ρ c
  have h3 : (V5 m ρ c main_v12 : S100000x1.Idx → EReal) = disCol (edges m c) := W5_v12 m ρ c
  have h4 : (V5 m ρ c main_v37 : S1x64.Idx → EReal) = shapeCast S1x64 (m ((c.tc : Thread nD τ).loc main_arg7)) shapeCasts_S64_S1x64 := W5_v37 m ρ c
  refine (W6_arr m ρ c 5).trans ((Cert.KernelIdeal.Region2.final (V5 m ρ) c).trans ?_)
  rw [h0, h1, h2, h3, h4]

end Cert.KernelIdeal.Transport

end
-- ==== Proof.LibScatterRows.lean ====
/-
  A ROW SCATTER WITH AN ADDING BODY, READ AT AN INDEX.

  The scatter that a segment sum over rows lowers to: operand `[N, C]`, scatter indices `[E, 1]`, updates `[E, C]`,
  update window axes `[1]`, inserted window axes `[0]`, scatter-dims-to-operand-dims `[0]`, index vector axis `1`.
  Update row `e` is added, column by column, into operand row `idx[e, 0]` (read as a signed integer, not clamped);
  a row whose index falls outside `[0, N)` is dropped. Over the extended reals the result at `(n, c)` is therefore
  the operand's element plus the sum of `upd (e, c)` over the rows `e` with `idx[e, 0] = n`.
-/
import Idealize.ShloMosaic.Lib.ValueIdx

noncomputable section

open scoped BigOperators

namespace Cert.RowScatter

open Idealize.ShloMosaic Idealize.ShloMosaic.ValueIdx

/-- The dimension numbers of a row scatter: operand `[N, C]`, scatter indices `[E, 1]`, updates `[E, C]`; the
    updates' axis 1 is the window axis and goes to the operand's axis 1, the operand's axis 0 is inserted and is the
    one the (one-component) scatter index addresses. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update index `(e, c')` starts at the scatter index `idx[e, 0]`, read signed. -/
theorem start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On operand axis 1, which the scatter index does not address, every window starts at `0`. -/
theorem start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  show ¬ ((1 : Fin 2) ∈ [(0 : Fin 2)])
  decide

/-- On the inserted operand axis 0 the window coordinate is `0`. -/
theorem window_zero {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg]
  show ¬ ((0 : Fin 2) ∈ [(1 : Fin 2)])
  decide

/-- On operand axis 1 the window coordinate is the update index's column. -/
theorem window_one {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept from
    (show (1 : Fin 2) ∈ [(1 : Fin 2)] from List.mem_singleton.mpr rfl))]
  rfl

/-- For any scatter dimension numbers: update index `j` lands on operand index `i` exactly when, on every operand
    axis, the (signed) start plus the window coordinate is `i`'s coordinate. The in-range condition is then automatic,
    since `i`'s coordinates are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := hb a
      omega
    · exact absurd h (by simp)
  · intro h
    have hb : ∀ a, 0 ≤ d.start j idx a + (d.window j a : Int) ∧ d.start j idx a + (d.window j a : Int) < s.size a := by
      intro a; have := h a; have := (i a).isLt; omega
    rw [dif_pos hb]
    congr 1
    funext a
    refine Fin.ext ?_
    have := h a
    show (d.start j idx a + (d.window j a : Int)).toNat = (i a).val
    omega

/-- Update index `(e, c')` lands on operand index `(n, c)` exactly when the scatter index `idx[e, 0]`, read as a
    signed integer, is `n`, and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  rw [resultIdx?_eq_some_iff]
  constructor
  · intro h
    have h0 : (idx (ix2 e ⟨0, Nat.one_pos⟩)).toInt + ((0 : Nat) : Int) = (n.val : Int) := by
      have := h 0; rwa [start_zero, window_zero] at this
    have h1 : (0 : Int) + (c'.val : Int) = (c.val : Int) := by
      have := h 1; rwa [start_one, window_one] at this
    refine ⟨?_, Fin.ext ?_⟩
    · omega
    · omega
  · rintro ⟨h0, rfl⟩ a
    match a with
    | ⟨0, _⟩ =>
      show (rowScatterDims N E C wf).start (ix2 e c') idx 0 + ((rowScatterDims N E C wf).window (ix2 e c') 0 : Int) = _
      rw [start_zero, window_zero, h0]
      show (n.val : Int) + ((0 : Nat) : Int) = (n.val : Int)
      omega
    | ⟨1, _⟩ =>
      show (rowScatterDims N E C wf).start (ix2 e c') idx 1 + ((rowScatterDims N E C wf).window (ix2 e c') 1 : Int) = _
      rw [start_one, window_one]
      show (0 : Int) + (c'.val : Int) = (c'.val : Int)
      omega

/-- The same for an update index not yet split into its coordinates. -/
theorem resultIdx_rows_iff' {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (c : Fin C) :
    (rowScatterDims N E C wf).resultIdx? j idx = some (ix2 n c)
      ↔ (idx (ix2 (j 0 : Fin E) ⟨0, Nat.one_pos⟩)).toInt = (n.val : Int) ∧ (j 1 : Fin C) = c := by
  have h := resultIdx_rows_iff wf idx (j 0) (j 1) n c
  constructor
  · intro hj
    rw [eq_ix2 j] at hj
    exact h.mp hj
  · intro hh
    rw [eq_ix2 j]
    exact h.mpr hh

/-- THE ROW SCATTER READ AT `(n, c)`: the operand's element plus the sum, over the update rows `e` whose scatter index
    `idx[e, 0]` (signed, not clamped) is `n`, of `upd (e, c)`. The update indices landing on `(n, c)` are the
    `(e, c)` with `idx[e, 0] = n`; the sum is re-indexed along `(e, c) ↦ e`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e ⟨0, Nat.one_pos⟩)).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx_rows_iff' wf idx j n c).mp hj').1⟩
  · intro e he
    have he' := (Finset.mem_filter.mp he).2
    exact Finset.mem_filter.mpr ⟨Finset.mem_univ _, (resultIdx_rows_iff wf idx e c n c).mpr ⟨he', rfl⟩⟩
  · intro j hj
    have hj' := (Finset.mem_filter.mp hj).2
    have h := ((resultIdx_rows_iff' wf idx j n c).mp hj').2
    rw [← h]; exact (eq_ix2 j).symm
  · intro e _; rfl
  · intro j hj
    have hj' := (Finset.mem_filter.mp hj).2
    have h := ((resultIdx_rows_iff' wf idx j n c).mp hj').2
    rw [← h]; exact congrArg upd (eq_ix2 j)

end Cert.RowScatter

end
-- ==== Proof.KernelValue.lean ====
/-
  The kernel's result read at an entry: the specification's network over the propagation step with the weights applied at
  the nodes.

  The spread of an array `y` — its rows gathered at the edges' sources, added into the rows the edges' targets name —
  is at `(n, k)` the zero word's value plus the sum, over the edges landing on `n`, of `y` at the edge's source row.
  Each launch's output is a row function times the node's weight, so the spread of it, scaled by the weight of the target
  node as the next launch does first, is one propagation step `propK` of that row function. The biases reach the launches
  as rows, read at `(0, k)` as the vector at `k`; the weights as a column, read at `(i, 0)` as the vector at `i`.
-/
import proofs.«121146_j10118942949882_2_alg».proof.Proof.Transport
import proofs.«121146_j10118942949882_2_alg».proof.Proof.LibScatterRows

set_option maxRecDepth 16384

noncomputable section

open scoped BigOperators

namespace Cert.KernelIdeal.AtEntry

open Cert.KernelIdeal Cert.KernelIdeal.Gen Idealize.ShloMosaic Idealize.ShloMosaic.ValueIdx
open Cert.Gcn Cert.KernelIdeal.Transport

theorem gatherDims_eq : gather_S100000x256_S900000x1_S900000x256_1_0_n_n_0_1_1256
    = Cert.RowGather.rowGatherDims 100000 900000 256 Gen.gather_S100000x256_S900000x1_S900000x256_1_0_n_n_0_1_1256_wf := rfl
theorem scatterDims_eq : scatter_S100000x256_S900000x1_S900000x256_1_0_0_1
    = Cert.RowScatter.rowScatterDims 100000 900000 256 Gen.scatter_S100000x256_S900000x1_S900000x256_1_0_0_1_wf := rfl

/-- Rows of `H` gathered through an index column and added into `Z` at the rows another index column names, read at
    `(n, k)`: the entry of `Z` plus the sum over the edges landing on `n` of `H` at the edge's source row. -/
theorem gather_scatter_apply (Z H : (⟨2, ![100000, 256]⟩ : Shape).Idx → EReal) (iS iT : IVec ⟨2, ![900000, 1]⟩ 32)
    (n : Fin 100000) (k : Fin 256) :
    Host.scatterAdd (F := Ideal) (φ := .f32) scatter_S100000x256_S900000x1_S900000x256_1_0_0_1 Z iT
        (Host.gather gather_S100000x256_S900000x1_S900000x256_1_0_n_n_0_1_1256 H iS) (ix2 n k)
      = Z (ix2 n k) + ∑ e ∈ into iT n, H (ix2 (rowAt iS e) k) := by
  unfold Host.scatterAdd
  rw [Ideal.hostScatterAdd_def, scatterDims_eq, Cert.RowScatter.hostScatterAdd_rows_apply]
  unfold into
  refine congrArg (Z (ix2 n k) + ·) (Finset.sum_congr rfl fun e _ => ?_)
  unfold rowAt
  rw [gatherDims_eq, Cert.RowGather.gather_rows_apply (by norm_num)]

variable (a1 : S2x800000.Idx → BitVec 32)

/-- The weight column at `(i, u)` is the weight of node `i`. -/
theorem disCol_apply (i : Fin 100000) (u : Fin 1) : disCol a1 (ix2 i u) = disK a1 (ix1 i) :=
  Cert.LibKeepdims.shapeCast_a_a1_apply (disK a1) shapeCasts_S100000_S100000x1 i u

/-- A vector passed as a row, at `(u, k)`, is the vector at `k`. -/
theorem row_apply {b : ℕ} (y : (⟨1, ![b]⟩ : Shape).Idx → EReal) (h : (⟨1, ![b]⟩ : Shape).ShapeCasts ⟨2, ![1, b]⟩)
    (u : Fin 1) (k : Fin b) : shapeCast ⟨2, ![1, b]⟩ y h (ix2 u k) = y (ix1 k) :=
  shapeCast_apply y h (ix2 u k) (ix1 k) (by
    have hu : u.val = 0 := by omega
    rw [Shape.rowMajor_val_one, Shape.rowMajor_val_two]
    show k.val = u.val * b + k.val
    rw [hu, Nat.zero_mul, Nat.zero_add])

/-- The spread of `y` at `(n, k)`: the zero word's value plus the sum over the edges landing on `n` of `y` at the
    edge's source row. -/
theorem spread_apply (y : S100000x256.Idx → EReal) (n : Fin 100000) (k : Fin 256) :
    spread a1 y (ix2 n k) = zeroW + ∑ e ∈ into (idxT a1) n, y (ix2 (rowAt (idxS a1) e) k) := by
  unfold spread
  exact gather_scatter_apply _ y (idxS a1) (idxT a1) n k

/-- The spread of an array whose rows are a row function times the node weight, scaled by the target's weight, is one
    propagation step of the row function. -/
theorem spread_scaled (y : S100000x256.Idx → EReal) (h : Fin 100000 → Fin 256 → EReal)
    (hy : ∀ (i : Fin 100000) (k : Fin 256), y (ix2 i k) = h i k * disK a1 (ix1 i)) (n : Fin 100000) (k : Fin 256) (u : Fin 1) :
    spread a1 y (ix2 n k) * disCol a1 (ix2 n u) = propK (disK a1) (idxS a1) (idxT a1) h n k := by
  rw [spread_apply, disCol_apply]
  unfold propK
  exact congrArg (fun s : EReal => (zeroW + s) * disK a1 (ix1 n)) (Finset.sum_congr rfl fun e _ => hy _ k)

variable (x : S100000x256.Idx → EReal) (w1 : S256x256.Idx → EReal) (b1 : S256.Idx → EReal) (w2 : S256x256.Idx → EReal)
  (b2 : S256.Idx → EReal) (wo : S256x64.Idx → EReal) (bo : S64.Idx → EReal)

/-- The first launch's output. -/
def Y0 : S100000x256.Idx → EReal := Cert.KernelIdeal.Region0.G x w1 (disCol a1)
/-- The second launch's output. -/
def Y1 : S100000x256.Idx → EReal :=
  Cert.KernelIdeal.Region1.G (spread a1 (Y0 a1 x w1)) w2 (shapeCast S1x256 b1 shapeCasts_S256_S1x256) (disCol a1)
/-- The result. -/
def Yout : S100000x64.Idx → EReal :=
  Cert.KernelIdeal.Region2.G (spread a1 (Y1 a1 x w1 b1 w2)) wo (shapeCast S1x256 b2 shapeCasts_S256_S1x256) (disCol a1)
    (shapeCast S1x64 bo shapeCasts_S64_S1x64)

/-- The first output at `(i, c)`: the first linear map times the weight of node `i`. -/
theorem Y0_apply (i : Fin 100000) (c : Fin 256) : Y0 a1 x w1 (ix2 i c) = feat0 x w1 i c * disK a1 (ix1 i) := by
  unfold Y0 Cert.KernelIdeal.Region0.G feat0
  show (∑ k : Fin 256, x (ix2 i k) * w1 (ix2 k c)) * disCol a1 (ix2 i (0 : Fin 1)) = _
  rw [disCol_apply]

/-- The rectified rows the later launches feed their matrix, from a spread array scaled at the target. -/
theorem hidden_of_spread {C : ℕ} (y : S100000x256.Idx → EReal) (h : Fin 100000 → Fin 256 → EReal)
    (hy : ∀ (i : Fin 100000) (k : Fin 256), y (ix2 i k) = h i k * disK a1 (ix1 i))
    (b : S256.Idx → EReal) (w : (⟨2, ![256, C]⟩ : Shape).Idx → EReal) (i : Fin 100000) (c : Fin C) :
    (∑ k : Fin 256, max (spread a1 y (ix2 i k) * disCol a1 (ix2 i (0 : Fin 1))
        + shapeCast S1x256 b shapeCasts_S256_S1x256 (ix2 (0 : Fin 1) k)) zeroW * w (ix2 k c))
      = Cert.Gcn.hidden b w (propK (disK a1) (idxS a1) (idxT a1) h) i c := by
  unfold Cert.Gcn.hidden
  refine Finset.sum_congr rfl fun k _ => ?_
  rw [spread_scaled a1 y h hy i k (0 : Fin 1), row_apply b shapeCasts_S256_S1x256 (0 : Fin 1) k]

/-- The second output at `(i, c)`. -/
theorem Y1_apply (i : Fin 100000) (c : Fin 256) :
    Y1 a1 x w1 b1 w2 (ix2 i c)
      = Cert.Gcn.hidden b1 w2 (propK (disK a1) (idxS a1) (idxT a1) (feat0 x w1)) i c * disK a1 (ix1 i) := by
  unfold Y1 Cert.KernelIdeal.Region1.G
  show (∑ k : Fin 256, max (spread a1 (Y0 a1 x w1) (ix2 i k) * disCol a1 (ix2 i (0 : Fin 1))
      + shapeCast S1x256 b1 shapeCasts_S256_S1x256 (ix2 (0 : Fin 1) k)) zeroW * w2 (ix2 k c)) * disCol a1 (ix2 i (0 : Fin 1)) = _
  rw [hidden_of_spread a1 (Y0 a1 x w1) (feat0 x w1) (Y0_apply a1 x w1) b1 w2 i c, disCol_apply]

/-- THE KERNEL'S RESULT AT `(i, c)`: the specification's network over `propK`. -/
theorem Yout_apply (i : Fin 100000) (c : Fin 64) :
    Yout a1 x w1 b1 w2 b2 wo bo (ix2 i c)
      = outOf (propK (disK a1) (idxS a1) (idxT a1)) x w1 b1 w2 b2 wo bo i c := by
  unfold Yout Cert.KernelIdeal.Region2.G outOf
  show logSoftmaxRow (Cert.KernelIdeal.Region2.logitsOf (spread a1 (Y1 a1 x w1 b1 w2)) wo (shapeCast S1x256 b2 shapeCasts_S256_S1x256)
    (disCol a1) (shapeCast S1x64 bo shapeCasts_S64_S1x64) i) c = _
  refine congrArg (fun L : Fin 64 → EReal => logSoftmaxRow L c) (funext fun c' => ?_)
  unfold Cert.KernelIdeal.Region2.logitsOf
  rw [hidden_of_spread a1 (Y1 a1 x w1 b1 w2) _ (Y1_apply a1 x w1 b1 w2) b2 wo i c', row_apply bo shapeCasts_S64_S1x64 (0 : Fin 1) c']

end Cert.KernelIdeal.AtEntry

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.LibTypedRef.lean ====
/-
  Round trips through a typed reference.

  A typed reference to a tensor value's buffer carries a proof that the buffer's type is the value's type, and a
  called function's operations move contents between the two types along that proof: to the buffer's type when they
  write, back to the value's type when they read. The two moves are inverse to each other, whatever the reference and
  whatever the contents, because along the proof the two types are one type. Stated for ANY typed reference and proved
  by substituting the proof away, so that a term read back through such operations is freed of its round trips by
  rewriting, one pair at a time — each step checked on its own small equation, never by comparing the two whole terms.
-/
import Idealize.ShloMosaic.Lib.StableHlo

namespace Cert.LibTypedRef

open Idealize.ShloMosaic Idealize.ShloMosaic.StableHlo

variable {sig : RefSig} {Val : EltTy → Type} {T : BufTy}

/-- Contents moved to the buffer's own type and back are unchanged. -/
theorem ofBuf_toBuf (x : TRef sig T) (v : T.Contents Val) : x.ofBuf (x.toBuf v) = v := by
  obtain ⟨ref, ty_eq, h1, h2⟩ := x
  subst ty_eq
  rfl

/-- Contents moved to the value's type and back are unchanged. -/
theorem toBuf_ofBuf (x : TRef sig T) (v : x.ref.ty.Contents Val) : x.toBuf (x.ofBuf v) = v := by
  obtain ⟨ref, ty_eq, h1, h2⟩ := x
  subst ty_eq
  rfl

end Cert.LibTypedRef
-- ==== Proof.RefRun.lean ====
/-
  The reference program's run, read one stretch at a time.

  The reference's @main is a straight line of 117 operations. Its result buffer ends at the fold of the operations over
  the launch contents; the claim is that this fold, at the result buffer, is the last stage of the chain of stages
  `ReadP.val_<buffer>` (one per operation, each built from the previous ones). The line is cut into four stretches,
  A ++ (B ++ (C ++ D)): the fold over a concatenation is the fold over the second line of the fold over the first, and
  each stretch is read from ANY contents in which the buffers it reads hold the stages they should. So each comparison
  of a composed term with a stage unfolds the stages of one stretch only.
    A  the index vectors (sources, targets) and the weights (inverse square roots of the degrees),
    B  the first layer: product with the weight matrix, gather, scale, scatter-add, bias, rectifier,
    C  the second layer, the same,
    D  the last product, the bias, and the log-softmax over each row.
-/
import proofs.«121146_j10118942949882_2_alg».proof.Proof.RefOps
import proofs.«121146_j10118942949882_2_alg».proof.Proof.RefStages
import proofs.«121146_j10118942949882_2_alg».proof.Proof.LibAfterAppend
import proofs.«121146_j10118942949882_2_alg».proof.Proof.LibTypedRef

noncomputable section

namespace Cert.ReferenceIdeal.RunByHand

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- Operations 1–14: the two index vectors and the weights. -/
abbrev opsA : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)) ]

/-- Operations 15–56: the first layer, through its rectifier. -/
abbrev opsB : List (HloOp τ sig (Elt F)) :=
  [ binary main_arg0 main_arg2 main_v12 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    nullary main_c (constantI S_ 32 0#32),
    unary main_c main_v13 (broadcastInDim S900000 ![] bcast_S_S900000 : (⟨S_, .i32⟩ : BufTy).Contents (Elt F) → (⟨S900000, .i32⟩ : BufTy).Contents (Elt F)),
    binary main_v3 main_v13 main_v14 (cmpi .slt : (⟨S900000, .i32⟩ : BufTy).Contents (Elt F) → (⟨S900000, .i32⟩ : BufTy).Contents (Elt F) → (⟨S900000, .i1⟩ : BufTy).Contents (Elt F)),
    nullary main_c_1 (constantI S_ 32 100000#32),
    unary main_c_1 main_v15 (broadcastInDim S900000 ![] bcast_S_S900000 : (⟨S_, .i32⟩ : BufTy).Contents (Elt F) → (⟨S900000, .i32⟩ : BufTy).Contents (Elt F)),
    binary main_v3 main_v15 main_v16 (addi : (⟨S900000, .i32⟩ : BufTy).Contents (Elt F) → (⟨S900000, .i32⟩ : BufTy).Contents (Elt F) → (⟨S900000, .i32⟩ : BufTy).Contents (Elt F)),
    ternary main_v14 main_v16 main_v3 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v17 main_v18 (broadcastInDim S900000x1 ![0] bcast_S900000_S900000x1_0 : (⟨S900000, .i32⟩ : BufTy).Contents (Elt F) → (⟨S900000x1, .i32⟩ : BufTy).Contents (Elt F)),
    binary main_v11 main_v18 main_v19 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_2 (constantI S_ 32 0#32),
    unary main_c_2 main_v20 (broadcastInDim S900000 ![] bcast_S_S900000 : (⟨S_, .i32⟩ : BufTy).Contents (Elt F) → (⟨S900000, .i32⟩ : BufTy).Contents (Elt F)),
    binary main_v6 main_v20 main_v21 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v22 (broadcastInDim S900000 ![] bcast_S_S900000 : (⟨S_, .i32⟩ : BufTy).Contents (Elt F) → (⟨S900000, .i32⟩ : BufTy).Contents (Elt F)),
    binary main_v6 main_v22 main_v23 (addi : (⟨S900000, .i32⟩ : BufTy).Contents (Elt F) → (⟨S900000, .i32⟩ : BufTy).Contents (Elt F) → (⟨S900000, .i32⟩ : BufTy).Contents (Elt F)),
    ternary main_v21 main_v23 main_v6 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v24 main_v25 (broadcastInDim S900000x1 ![0] bcast_S900000_S900000x1_0 : (⟨S900000, .i32⟩ : BufTy).Contents (Elt F) → (⟨S900000x1, .i32⟩ : BufTy).Contents (Elt F)),
    binary main_v11 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v19 main_v26 main_v27 (mulf : (⟨S900000, .f32⟩ : BufTy).Contents (Elt F) → (⟨S900000, .f32⟩ : BufTy).Contents (Elt F) → (⟨S900000, .f32⟩ : BufTy).Contents (Elt F)),
    nullary main_c_4 (constantI S_ 32 0#32),
    unary main_c_4 main_v28 (broadcastInDim S900000 ![] bcast_S_S900000 : (⟨S_, .i32⟩ : BufTy).Contents (Elt F) → (⟨S900000, .i32⟩ : BufTy).Contents (Elt F)),
    binary main_v3 main_v28 main_v29 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v30 (broadcastInDim S900000 ![] bcast_S_S900000 : (⟨S_, .i32⟩ : BufTy).Contents (Elt F) → (⟨S900000, .i32⟩ : BufTy).Contents (Elt F)),
    binary main_v3 main_v30 main_v31 (addi : (⟨S900000, .i32⟩ : BufTy).Contents (Elt F) → (⟨S900000, .i32⟩ : BufTy).Contents (Elt F) → (⟨S900000, .i32⟩ : BufTy).Contents (Elt F)),
    ternary main_v29 main_v31 main_v3 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v32 main_v33 (broadcastInDim S900000x1 ![0] bcast_S900000_S900000x1_0 : (⟨S900000, .i32⟩ : BufTy).Contents (Elt F) → (⟨S900000x1, .i32⟩ : BufTy).Contents (Elt F)),
    binary main_v12 main_v33 main_v34 ((fun x i => Host.gather gather_S100000x256_S900000x1_S900000x256_1_0_n_n_0_1_1256 x i) : (⟨S100000x256, .f32⟩ : BufTy).Contents (Elt F) → (⟨S900000x1, .i32⟩ : BufTy).Contents (Elt F) → (⟨S900000x256, .f32⟩ : BufTy).Contents (Elt F)),
    unary main_v27 main_v35 (broadcastInDim S900000x1 ![0] bcast_S900000_S900000x1_0 : (⟨S900000, .f32⟩ : BufTy).Contents (Elt F) → (⟨S900000x1, .f32⟩ : BufTy).Contents (Elt F)),
    unary main_v35 main_v36 (broadcastInDim S900000x256 ![0, 1] bcast_S900000x1_S900000x256_0_1 : (⟨S900000x1, .f32⟩ : BufTy).Contents (Elt F) → (⟨S900000x256, .f32⟩ : BufTy).Contents (Elt F)),
    binary main_v34 main_v36 main_v37 (mulf : (⟨S900000x256, .f32⟩ : BufTy).Contents (Elt F) → (⟨S900000x256, .f32⟩ : BufTy).Contents (Elt F) → (⟨S900000x256, .f32⟩ : BufTy).Contents (Elt F)),
    nullary main_cst_6 (constant S_ .f32 0x00000000#32),
    unary main_cst_6 main_v38 (broadcastInDim S100000x256 ![] bcast_S_S100000x256 : (⟨S_, .f32⟩ : BufTy).Contents (Elt F) → (⟨S100000x256, .f32⟩ : BufTy).Contents (Elt F)),
    unary main_v6 main_v39 (broadcastInDim S900000x1 ![0] bcast_S900000_S900000x1_0 : (⟨S900000, .i32⟩ : BufTy).Contents (Elt F) → (⟨S900000x1, .i32⟩ : BufTy).Contents (Elt F)),
    ternary main_v38 main_v39 main_v37 main_v40 ((fun x i u => Host.scatterAdd scatter_S100000x256_S900000x1_S900000x256_1_0_0_1 x i u) : (⟨S100000x256, .f32⟩ : BufTy).Contents (Elt F) → (⟨S900000x1, .i32⟩ : BufTy).Contents (Elt F) → (⟨S900000x256, .f32⟩ : BufTy).Contents (Elt F) → (⟨S100000x256, .f32⟩ : BufTy).Contents (Elt F)),
    unary main_arg3 main_v41 (broadcastInDim S1x256 ![1] bcast_S256_S1x256_1 : (⟨S256, .f32⟩ : BufTy).Contents (Elt F) → (⟨S1x256, .f32⟩ : BufTy).Contents (Elt F)),
    unary main_v41 main_v42 (broadcastInDim S100000x256 ![0, 1] bcast_S1x256_S100000x256_0_1 : (⟨S1x256, .f32⟩ : BufTy).Contents (Elt F) → (⟨S100000x256, .f32⟩ : BufTy).Contents (Elt F)),
    binary main_v40 main_v42 main_v43 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v43) (TRef.of (T := ⟨S100000x256, .f32⟩) main_call0_v0) (TRef.of (T := ⟨S100000x256, .f32⟩) main_v44) maximumf ]

/-- Operations 57–98: the second layer, through its rectifier. -/
abbrev opsC : List (HloOp τ sig (Elt F)) :=
  [ binary main_v44 main_arg4 main_v45 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    nullary main_c_7 (constantI S_ 32 0#32),
    unary main_c_7 main_v46 (broadcastInDim S900000 ![] bcast_S_S900000 : (⟨S_, .i32⟩ : BufTy).Contents (Elt F) → (⟨S900000, .i32⟩ : BufTy).Contents (Elt F)),
    binary main_v3 main_v46 main_v47 (cmpi .slt : (⟨S900000, .i32⟩ : BufTy).Contents (Elt F) → (⟨S900000, .i32⟩ : BufTy).Contents (Elt F) → (⟨S900000, .i1⟩ : BufTy).Contents (Elt F)),
    nullary main_c_8 (constantI S_ 32 100000#32),
    unary main_c_8 main_v48 (broadcastInDim S900000 ![] bcast_S_S900000 : (⟨S_, .i32⟩ : BufTy).Contents (Elt F) → (⟨S900000, .i32⟩ : BufTy).Contents (Elt F)),
    binary main_v3 main_v48 main_v49 (addi : (⟨S900000, .i32⟩ : BufTy).Contents (Elt F) → (⟨S900000, .i32⟩ : BufTy).Contents (Elt F) → (⟨S900000, .i32⟩ : BufTy).Contents (Elt F)),
    ternary main_v47 main_v49 main_v3 main_v50 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v50 main_v51 (broadcastInDim S900000x1 ![0] bcast_S900000_S900000x1_0 : (⟨S900000, .i32⟩ : BufTy).Contents (Elt F) → (⟨S900000x1, .i32⟩ : BufTy).Contents (Elt F)),
    binary main_v11 main_v51 main_v52 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_9 (constantI S_ 32 0#32),
    unary main_c_9 main_v53 (broadcastInDim S900000 ![] bcast_S_S900000 : (⟨S_, .i32⟩ : BufTy).Contents (Elt F) → (⟨S900000, .i32⟩ : BufTy).Contents (Elt F)),
    binary main_v6 main_v53 main_v54 (cmpi .slt : (⟨S900000, .i32⟩ : BufTy).Contents (Elt F) → (⟨S900000, .i32⟩ : BufTy).Contents (Elt F) → (⟨S900000, .i1⟩ : BufTy).Contents (Elt F)),
    nullary main_c_10 (constantI S_ 32 100000#32),
    unary main_c_10 main_v55 (broadcastInDim S900000 ![] bcast_S_S900000 : (⟨S_, .i32⟩ : BufTy).Contents (Elt F) → (⟨S900000, .i32⟩ : BufTy).Contents (Elt F)),
    binary main_v6 main_v55 main_v56 (addi : (⟨S900000, .i32⟩ : BufTy).Contents (Elt F) → (⟨S900000, .i32⟩ : BufTy).Contents (Elt F) → (⟨S900000, .i32⟩ : BufTy).Contents (Elt F)),
    ternary main_v54 main_v56 main_v6 main_v57 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v57 main_v58 (broadcastInDim S900000x1 ![0] bcast_S900000_S900000x1_0 : (⟨S900000, .i32⟩ : BufTy).Contents (Elt F) → (⟨S900000x1, .i32⟩ : BufTy).Contents (Elt F)),
    binary main_v11 main_v58 main_v59 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v52 main_v59 main_v60 (mulf : (⟨S900000, .f32⟩ : BufTy).Contents (Elt F) → (⟨S900000, .f32⟩ : BufTy).Contents (Elt F) → (⟨S900000, .f32⟩ : BufTy).Contents (Elt F)),
    nullary main_c_11 (constantI S_ 32 0#32),
    unary main_c_11 main_v61 (broadcastInDim S900000 ![] bcast_S_S900000 : (⟨S_, .i32⟩ : BufTy).Contents (Elt F) → (⟨S900000, .i32⟩ : BufTy).Contents (Elt F)),
    binary main_v3 main_v61 main_v62 (cmpi .slt : (⟨S900000, .i32⟩ : BufTy).Contents (Elt F) → (⟨S900000, .i32⟩ : BufTy).Contents (Elt F) → (⟨S900000, .i1⟩ : BufTy).Contents (Elt F)),
    nullary main_c_12 (constantI S_ 32 100000#32),
    unary main_c_12 main_v63 (broadcastInDim S900000 ![] bcast_S_S900000 : (⟨S_, .i32⟩ : BufTy).Contents (Elt F) → (⟨S900000, .i32⟩ : BufTy).Contents (Elt F)),
    binary main_v3 main_v63 main_v64 (addi : (⟨S900000, .i32⟩ : BufTy).Contents (Elt F) → (⟨S900000, .i32⟩ : BufTy).Contents (Elt F) → (⟨S900000, .i32⟩ : BufTy).Contents (Elt F)),
    ternary main_v62 main_v64 main_v3 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v65 main_v66 (broadcastInDim S900000x1 ![0] bcast_S900000_S900000x1_0 : (⟨S900000, .i32⟩ : BufTy).Contents (Elt F) → (⟨S900000x1, .i32⟩ : BufTy).Contents (Elt F)),
    binary main_v45 main_v66 main_v67 ((fun x i => Host.gather gather_S100000x256_S900000x1_S900000x256_1_0_n_n_0_1_1256 x i) : (⟨S100000x256, .f32⟩ : BufTy).Contents (Elt F) → (⟨S900000x1, .i32⟩ : BufTy).Contents (Elt F) → (⟨S900000x256, .f32⟩ : BufTy).Contents (Elt F)),
    unary main_v60 main_v68 (broadcastInDim S900000x1 ![0] bcast_S900000_S900000x1_0 : (⟨S900000, .f32⟩ : BufTy).Contents (Elt F) → (⟨S900000x1, .f32⟩ : BufTy).Contents (Elt F)),
    unary main_v68 main_v69 (broadcastInDim S900000x256 ![0, 1] bcast_S900000x1_S900000x256_0_1 : (⟨S900000x1, .f32⟩ : BufTy).Contents (Elt F) → (⟨S900000x256, .f32⟩ : BufTy).Contents (Elt F)),
    binary main_v67 main_v69 main_v70 (mulf : (⟨S900000x256, .f32⟩ : BufTy).Contents (Elt F) → (⟨S900000x256, .f32⟩ : BufTy).Contents (Elt F) → (⟨S900000x256, .f32⟩ : BufTy).Contents (Elt F)),
    nullary main_cst_13 (constant S_ .f32 0x00000000#32),
    unary main_cst_13 main_v71 (broadcastInDim S100000x256 ![] bcast_S_S100000x256 : (⟨S_, .f32⟩ : BufTy).Contents (Elt F) → (⟨S100000x256, .f32⟩ : BufTy).Contents (Elt F)),
    unary main_v6 main_v72 (broadcastInDim S900000x1 ![0] bcast_S900000_S900000x1_0 : (⟨S900000, .i32⟩ : BufTy).Contents (Elt F) → (⟨S900000x1, .i32⟩ : BufTy).Contents (Elt F)),
    ternary main_v71 main_v72 main_v70 main_v73 ((fun x i u => Host.scatterAdd scatter_S100000x256_S900000x1_S900000x256_1_0_0_1 x i u) : (⟨S100000x256, .f32⟩ : BufTy).Contents (Elt F) → (⟨S900000x1, .i32⟩ : BufTy).Contents (Elt F) → (⟨S900000x256, .f32⟩ : BufTy).Contents (Elt F) → (⟨S100000x256, .f32⟩ : BufTy).Contents (Elt F)),
    unary main_arg5 main_v74 (broadcastInDim S1x256 ![1] bcast_S256_S1x256_1 : (⟨S256, .f32⟩ : BufTy).Contents (Elt F) → (⟨S1x256, .f32⟩ : BufTy).Contents (Elt F)),
    unary main_v74 main_v75 (broadcastInDim S100000x256 ![0, 1] bcast_S1x256_S100000x256_0_1 : (⟨S1x256, .f32⟩ : BufTy).Contents (Elt F) → (⟨S100000x256, .f32⟩ : BufTy).Contents (Elt F)),
    binary main_v73 main_v75 main_v76 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v76) (TRef.of (T := ⟨S100000x256, .f32⟩) main_call1_v0) (TRef.of (T := ⟨S100000x256, .f32⟩) main_v77) maximumf ]

/-- Operations 99–117: the last product, the bias, the log-softmax. -/
abbrev opsD : List (HloOp τ sig (Elt F)) :=
  [ binary main_v77 main_arg6 main_v78 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg7 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0xFF800000#32),
    TRef.binary (TRef.of (T := ⟨S100000x64, .f32⟩) main_v81) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v81) (TRef.of (T := ⟨S100000x64, .f32⟩) main_call2_v4) (TRef.of (T := ⟨S100000x64, .f32⟩) main_call2_v5) subf,
    TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v82) subf ]

set_option maxRecDepth 8192 in
/-- The line is its four stretches set end to end. -/
theorem ops_split : (ValueP.ops : List (HloOp τ sig (Elt F))) = opsA ++ (opsB ++ (opsC ++ opsD)) := rfl

/-- A buffer no operation of a stretch writes holds after the stretch what it held before. -/
macro "kept_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

/-! ## Stretch A: the index vectors and the weights -/

section A
variable (V : Valuation τ sig (Elt F)) (x1 : (⟨S2x800000, .i32⟩ : BufTy).Contents (Elt F)) (h1 : V (Proc.devRef .tc main_arg1) = x1)
include h1

/-- The source indices: row 0 of the edge list, then the loops. -/
theorem A_v3 : after opsA V (Proc.devRef .tc main_v3) = ReadP.val_main_v3 (F := F) x1 := by
  subst h1; after_results; rfl

/-- The target indices: row 1 of the edge list, then the loops. -/
theorem A_v6 : after opsA V (Proc.devRef .tc main_v6) = ReadP.val_main_v6 (F := F) x1 := by
  subst h1; after_results; rfl

/-- The weights: the inverse square root of each node's degree. -/
theorem A_v11 : after opsA V (Proc.devRef .tc main_v11) = ReadP.val_main_v11 (F := F) x1 := by
  subst h1; after_results; rfl

end A

/-- Stretch A writes none of the arguments. -/
theorem A_keeps (V : Valuation τ sig (Elt F)) :
    after opsA V (Proc.devRef .tc main_arg0) = V (Proc.devRef .tc main_arg0)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7) := by
  refine ⟨?_, ?_, ?_, ?_, ?_, ?_, ?_⟩ <;> kept_by opsA

/-! ## Stretch B: the first layer -/

/-- The first layer's output, from any contents holding the features, the first weight matrix and bias, the index
    vectors and the weights. -/
theorem B_v44 (V : Valuation τ sig (Elt F)) (x0 : (⟨S100000x256, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F))
    (h0 : V (Proc.devRef .tc main_arg0) = x0) (h2 : V (Proc.devRef .tc main_arg2) = x2) (h3 : V (Proc.devRef .tc main_arg3) = x3)
    (hv3 : V (Proc.devRef .tc main_v3) = ReadP.val_main_v3 (F := F) x1) (hv6 : V (Proc.devRef .tc main_v6) = ReadP.val_main_v6 (F := F) x1)
    (hv11 : V (Proc.devRef .tc main_v11) = ReadP.val_main_v11 (F := F) x1) :
    after opsB V (Proc.devRef .tc main_v44) = ReadP.val_main_v44 (F := F) x0 x1 x2 x3 := by
  subst h0 h2 h3
  after_results_simp
  simp only [hv3, hv6, hv11, Cert.LibTypedRef.ofBuf_toBuf, Cert.LibTypedRef.toBuf_ofBuf]
  rfl

/-- Stretch B writes neither the index vectors, nor the weights, nor the later arguments. -/
theorem B_keeps (V : Valuation τ sig (Elt F)) :
    after opsB V (Proc.devRef .tc main_v3) = V (Proc.devRef .tc main_v3)
    ∧ after opsB V (Proc.devRef .tc main_v6) = V (Proc.devRef .tc main_v6)
    ∧ after opsB V (Proc.devRef .tc main_v11) = V (Proc.devRef .tc main_v11)
    ∧ after opsB V (Proc.devRef .tc main_arg4) = V (Proc.devRef .tc main_arg4)
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7) := by
  refine ⟨?_, ?_, ?_, ?_, ?_, ?_, ?_⟩ <;> kept_by opsB

/-! ## Stretch C: the second layer -/

/-- The second layer's output, from any contents holding the first layer's output, the second weight matrix and bias,
    the index vectors and the weights. -/
theorem C_v77 (V : Valuation τ sig (Elt F)) (x0 : (⟨S100000x256, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (h4 : V (Proc.devRef .tc main_arg4) = x4) (h5 : V (Proc.devRef .tc main_arg5) = x5)
    (hv3 : V (Proc.devRef .tc main_v3) = ReadP.val_main_v3 (F := F) x1) (hv6 : V (Proc.devRef .tc main_v6) = ReadP.val_main_v6 (F := F) x1)
    (hv11 : V (Proc.devRef .tc main_v11) = ReadP.val_main_v11 (F := F) x1)
    (hv44 : V (Proc.devRef .tc main_v44) = ReadP.val_main_v44 (F := F) x0 x1 x2 x3) :
    after opsC V (Proc.devRef .tc main_v77) = ReadP.val_main_v77 (F := F) x0 x1 x2 x3 x4 x5 := by
  subst h4 h5
  after_results_simp
  simp only [hv3, hv6, hv11, hv44, Cert.LibTypedRef.ofBuf_toBuf, Cert.LibTypedRef.toBuf_ofBuf]
  rfl

/-- Stretch C writes none of the last two arguments. -/
theorem C_keeps (V : Valuation τ sig (Elt F)) :
    after opsC V (Proc.devRef .tc main_arg6) = V (Proc.devRef .tc main_arg6)
    ∧ after opsC V (Proc.devRef .tc main_arg7) = V (Proc.devRef .tc main_arg7) := by
  refine ⟨?_, ?_⟩ <;> kept_by opsC

/-! ## Stretch D: the last product, the bias, the log-softmax -/

/-- The result, from any contents holding the second layer's output and the last weight matrix and bias. -/
theorem D_v82 (V : Valuation τ sig (Elt F)) (x0 : (⟨S100000x256, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x64, .f32⟩ : BufTy).Contents (Elt F)) (x7 : (⟨S64, .f32⟩ : BufTy).Contents (Elt F))
    (h6 : V (Proc.devRef .tc main_arg6) = x6) (h7 : V (Proc.devRef .tc main_arg7) = x7)
    (hv77 : V (Proc.devRef .tc main_v77) = ReadP.val_main_v77 (F := F) x0 x1 x2 x3 x4 x5) :
    after opsD V (Proc.devRef .tc main_v82) = ReadP.val_main_v82 (F := F) x0 x1 x2 x3 x4 x5 x6 x7 := by
  subst h6 h7
  after_results_simp
  simp only [hv77, Cert.LibTypedRef.ofBuf_toBuf, Cert.LibTypedRef.toBuf_ofBuf]
  rfl

/-! ## The whole line -/

/-- The result buffer after the whole line, from any contents holding the eight arguments: the four stretches in
    turn, each handed what the earlier ones computed or kept. -/
theorem after_ops_v82 (V : Valuation τ sig (Elt F)) (x0 : (⟨S100000x256, .f32⟩ : BufTy).Contents (Elt F)) (x1 : (⟨S2x800000, .i32⟩ : BufTy).Contents (Elt F)) (x2 : (⟨S256x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F)) (x6 : (⟨S256x64, .f32⟩ : BufTy).Contents (Elt F)) (x7 : (⟨S64, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) :
    after (ValueP.ops : List (HloOp τ sig (Elt F))) V (Proc.devRef .tc main_v82)
      = ReadP.val_main_v82 (F := F) x0 x1 x2 x3 x4 x5 x6 x7 := by
  rw [ops_split, after_append, after_append, after_append]
  obtain ⟨a0, a2, a3, a4, a5, a6, a7⟩ := A_keeps (F := F) V
  obtain ⟨b3, b6, b11, b4, b5, b6', b7⟩ := B_keeps (F := F) (after opsA V)
  obtain ⟨c6, c7⟩ := C_keeps (F := F) (after opsB (after opsA V))
  have hA3 := A_v3 V x1 h1
  have hA6 := A_v6 V x1 h1
  have hA11 := A_v11 V x1 h1
  exact D_v82 _ x0 x1 x2 x3 x4 x5 x6 x7 (c6.trans (b6'.trans (a6.trans h6))) (c7.trans (b7.trans (a7.trans h7)))
    (C_v77 _ x0 x1 x2 x3 x4 x5 (b4.trans (a4.trans h4)) (b5.trans (a5.trans h5)) (b3.trans hA3) (b6.trans hA6) (b11.trans hA11)
      (B_v44 _ x0 x1 x2 x3 (a0.trans h0) (a2.trans h2) (a3.trans h3) hA3 hA6 hA11))

/-! ## The run -/

set_option maxRecDepth 8192 in
set_option maxHeartbeats 4000000 in
/-- On every device, for any float values, from any memory with zero counters: every weakly fair execution of
    @main terminates with the result buffer at the last stage of the chain of stages, taken at the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = ReadP.val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans
        (after_ops_v82 _ _ _ _ _ _ _ _ _ rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq ValueP.scopedRefs_eq ValueP.scopedSems_eq defs main (fun _ => ValueP.ops) ValueP.main_eq (fun _ => ValueP.ops_sub) m ρ)

end Cert.ReferenceIdeal.RunByHand

end
-- ==== Proof.Edges.lean ====
/-
  The graph's index arrays and node weights.

  The edge list is a vector `v` of 900000 32-bit target (or source) indices: the 800000 given ones followed by the
  loops `0, 1, …, 99999`. An index is used in two ways. A scatter-add reads it signed and drops an update whose
  index is outside `[0, 100000)`. A gather first wraps a negative index by adding 100000 (`wrap`), then reads it signed
  and clamps it into range. For an edge whose raw index is a node `n`, wrapping and clamping change nothing:
  the gather reads node `n` (`rowAt_wrap_of_target`).

  The weight of node `n` is the reciprocal square root of the number of edges landing on it — a scatter-add of ones
  into zeros. The loop of node `n` lands on `n`, so the count is at least one, and the weight is a nonnegative finite
  number (`weight_nonneg_ne_top`).
-/
import Idealize.ShloMosaic.Lib.ValueIdx
import Idealize.ShloMosaic.Lib.Pipeline.Value
import Idealize.ShloMosaic.PureOps.Ideal
import Idealize.ShloMosaic.PureOps.Ideal.Laws
import proofs.«121146_j10118942949882_2_alg».proof.Proof.Spec
import proofs.«121146_j10118942949882_2_alg».proof.Proof.LibScatterRows

noncomputable section

open scoped BigOperators

namespace Cert.Gcn

open Idealize.ShloMosaic Idealize.ShloMosaic.ValueIdx

/-- A vector of indices as the one-column matrix a gather or scatter takes. -/
abbrev asColumn (hb : (⟨1, ![900000]⟩ : Shape).BroadcastsInDim ⟨2, ![900000, 1]⟩ ![0]) (v : IVec ⟨1, ![900000]⟩ 32) :
    IVec ⟨2, ![900000, 1]⟩ 32 :=
  broadcastInDim ⟨2, ![900000, 1]⟩ ![0] hb v

/-- A negative index wrapped by adding the number of nodes, as indexing does before a gather. -/
abbrev wrap (h0 : (⟨0, ![]⟩ : Shape).BroadcastsInDim ⟨1, ![900000]⟩ ![]) (v : IVec ⟨1, ![900000]⟩ 32) : IVec ⟨1, ![900000]⟩ 32 :=
  select (cmpi .slt v (broadcastInDim ⟨1, ![900000]⟩ ![] h0 (constantI ⟨0, ![]⟩ 32 0#32)))
    (addi v (broadcastInDim ⟨1, ![900000]⟩ ![] h0 (constantI ⟨0, ![]⟩ 32 100000#32))) v

/-- The column read at row `e` is the vector at `e`. -/
theorem asColumn_apply (hb : (⟨1, ![900000]⟩ : Shape).BroadcastsInDim ⟨2, ![900000, 1]⟩ ![0]) (v : IVec ⟨1, ![900000]⟩ 32)
    (e : Fin 900000) (u : Fin 1) : asColumn hb v (ix2 e u) = v (ix1 e) := by
  refine broadcastInDim_apply ![0] hb v (ix2 e u) (ix1 e) (fun a => ?_)
  match a with
  | ⟨0, _⟩ => rfl

/-- An edge whose raw index is node `n` reads node `n` through the wrapped, clamped index. -/
theorem rowAt_wrap_of_target (hb : (⟨1, ![900000]⟩ : Shape).BroadcastsInDim ⟨2, ![900000, 1]⟩ ![0])
    (h0 : (⟨0, ![]⟩ : Shape).BroadcastsInDim ⟨1, ![900000]⟩ ![]) (v : IVec ⟨1, ![900000]⟩ 32)
    (e : Fin 900000) (n : Fin 100000)
    (h : (asColumn hb v (ix2 e ⟨0, Nat.one_pos⟩)).toInt = (n.val : Int)) :
    rowAt (asColumn hb (wrap h0 v)) e = n := by
  rw [asColumn_apply] at h
  have hn : (0 : Int) ≤ (v (ix1 e)).toInt := by rw [h]; exact Int.natCast_nonneg _
  -- the comparison with zero is false, so wrapping leaves the index as it is
  have hslt : (v (ix1 e)).slt 0#32 = false := by
    unfold BitVec.slt
    rw [BitVec.toInt_zero]
    exact decide_eq_false (not_lt.mpr hn)
  have hw : wrap h0 v (ix1 e) = v (ix1 e) := by
    show Scalar.select (IntOp.cmpi .slt (v (ix1 e)) 0#32) (IntOp.addi (v (ix1 e)) 100000#32) (v (ix1 e)) = v (ix1 e)
    unfold Scalar.select
    rw [if_neg]
    show ¬ BitVec.ofBool ((v (ix1 e)).slt 0#32) = 1
    rw [hslt]
    decide
  unfold rowAt Cert.RowGather.rowOf
  refine Fin.ext ?_
  show min (asColumn hb (wrap h0 v) (ix2 e ⟨0, Nat.one_pos⟩)).toInt.toNat (100000 - 1) = n.val
  rw [asColumn_apply, hw, h]
  have := n.isLt
  omega

/-- The dimension numbers of a scatter of a vector of updates `[E]` into a vector `[N]` at indices `[E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a gather of single entries of a vector `[N]` at indices `[E, 1]` into a vector `[E]`. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gather of single entries of a vector, read at `e`: the vector at the index of row `e`, read signed and clamped —
    the same row a gather of matrix rows reads through that index array. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (Cert.RowGather.rowOf hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- An update whose index, read signed, is node `n` lands on entry `n` of the vector: on the one operand axis the
    window starts at the index and, the axis being inserted, the window coordinate is `0`. -/
private theorem vec_resultIdx_of {N E w : Nat} (wf : ScatterDims.WF ⟨1, ![N]⟩ ⟨2, ![E, 1]⟩ ⟨1, ![E]⟩ [] [0] [0] 1)
    (idx : IVec ⟨2, ![E, 1]⟩ w) (e : Fin E) (n : Fin N)
    (h : (idx (ix2 e ⟨0, Nat.one_pos⟩)).toInt = (n.val : Int)) :
    (vecScatterDims N E wf).resultIdx? (ix1 e) idx = some (ix1 n) := by
  rw [Cert.RowScatter.resultIdx?_eq_some_iff]
  intro a
  obtain rfl : a = 0 := Subsingleton.elim _ _
  have hst : (vecScatterDims N E wf).start (ix1 e) idx 0 = (n.val : Int) := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    exact h
  have hwin : (vecScatterDims N E wf).window (ix1 e) 0 = 0 := by
    unfold ScatterDims.window
    rw [dif_neg]
    show ¬ ((0 : Fin 1) ∈ ([] : List (Fin 1)))
    exact List.not_mem_nil
  rw [hst, hwin]
  show (n.val : Int) + ((0 : Nat) : Int) = (n.val : Int)
  omega

/-- A scatter-add of ones into a zero entry is positive wherever some update lands: the sum of the ones landing
    there is at least the one of that update, every term being nonnegative. -/
private theorem hostScatterAdd_pos {s si u : Shape} (d : ScatterDims s si u) {w : Nat} (x : s.Idx → EReal)
    (idx : IVec si w) (upd : u.Idx → EReal) (i : s.Idx) (j0 : u.Idx) (hx : x i = 0) (hu : ∀ j, upd j = 1)
    (hj : d.resultIdx? j0 idx = some i) : 0 < Ideal.hostScatterAdd d x idx upd i := by
  unfold Ideal.hostScatterAdd
  rw [hx, zero_add]
  refine lt_of_lt_of_le zero_lt_one (le_trans (le_of_eq (hu j0).symm)
    (Finset.single_le_sum (fun j _ => ?_) (Finset.mem_filter.mpr ⟨Finset.mem_univ _, hj⟩)))
  rw [hu j]
  exact zero_le_one

/-- The reciprocal square root of a scatter-add of ones into a zero entry, at an entry some update lands on, is a
    nonnegative finite number: the entry is positive. -/
private theorem rsqrt_scatterAdd_ones {s si u : Shape} (d : ScatterDims s si u) {w : Nat} (x : FVec Ideal s .f32)
    (idx : IVec si w) (upd : FVec Ideal u .f32) (i : s.Idx) (j0 : u.Idx) (hx : x i = 0) (hu : ∀ j, upd j = 1)
    (hj : d.resultIdx? j0 idx = some i) :
    0 ≤ Host.rsqrt (F := Ideal) (Host.scatterAdd (F := Ideal) d x idx upd) i
      ∧ Host.rsqrt (F := Ideal) (Host.scatterAdd (F := Ideal) d x idx upd) i ≠ ⊤ := by
  have hdeg : 0 < Ideal.hostScatterAdd d x idx upd i := hostScatterAdd_pos d x idx upd i j0 hx hu hj
  exact Cert.LibERealScale.rsqrt_nonneg_ne_top hdeg

/-- The number of edges landing on each node, as the programs compute it: ones scattered into zeros. -/
abbrev degree (wf : ScatterDims.WF ⟨1, ![100000]⟩ ⟨2, ![900000, 1]⟩ ⟨1, ![900000]⟩ [] [0] [0] 1)
    (hz : (⟨0, ![]⟩ : Shape).BroadcastsInDim ⟨1, ![100000]⟩ ![]) (h1 : (⟨0, ![]⟩ : Shape).BroadcastsInDim ⟨1, ![900000]⟩ ![])
    (idxT : IVec ⟨2, ![900000, 1]⟩ 32) : FVec Ideal ⟨1, ![100000]⟩ .f32 :=
  Host.scatterAdd (F := Ideal) (vecScatterDims 100000 900000 wf)
    (broadcastInDim ⟨1, ![100000]⟩ ![] hz (constant (F := Ideal) ⟨0, ![]⟩ .f32 0x00000000#32)) idxT
    (broadcastInDim ⟨1, ![900000]⟩ ![] h1 (constant (F := Ideal) ⟨0, ![]⟩ .f32 0x3F800000#32))

/-- When the loop of every node is among the edges (edge `800000 + n` has target `n`), every node's weight
    `rsqrt (degree)` is a nonnegative finite number. -/
theorem weight_nonneg_ne_top (wf : ScatterDims.WF ⟨1, ![100000]⟩ ⟨2, ![900000, 1]⟩ ⟨1, ![900000]⟩ [] [0] [0] 1)
    (hz : (⟨0, ![]⟩ : Shape).BroadcastsInDim ⟨1, ![100000]⟩ ![]) (h1 : (⟨0, ![]⟩ : Shape).BroadcastsInDim ⟨1, ![900000]⟩ ![])
    (idxT : IVec ⟨2, ![900000, 1]⟩ 32)
    (hloop : ∀ n : Fin 100000, (idxT (ix2 (⟨800000 + n.val, by omega⟩ : Fin 900000) ⟨0, Nat.one_pos⟩)).toInt = (n.val : Int))
    (n : Fin 100000) :
    0 ≤ Host.rsqrt (F := Ideal) (degree wf hz h1 idxT) (ix1 n) ∧ Host.rsqrt (F := Ideal) (degree wf hz h1 idxT) (ix1 n) ≠ ⊤ := by
  refine rsqrt_scatterAdd_ones _ _ idxT _ (ix1 n) (ix1 (⟨800000 + n.val, by omega⟩ : Fin 900000)) ?_ (fun j => ?_)
    (vec_resultIdx_of wf idxT _ n (hloop n))
  · -- the operand is zero everywhere
    rw [broadcastInDim_apply ![] hz _ (ix1 n) ix0 (fun a => a.elim0), constant_apply]
    exact Ideal.ofBits_zero_f32
  · -- every update is one
    rw [broadcastInDim_apply ![] h1 _ j ix0 (fun a => a.elim0), constant_apply]
    exact Cert.LibERealScale.ofBits_one_f32

/-- The edge list: the given indices followed by the loops. Read at edge `800000 + n` it is the loop of node `n`. -/
theorem loops_apply (a : IVec ⟨1, ![800000]⟩ 32)
    (h : Shape.Concatenates ([(⟨⟨1, ![800000]⟩, a⟩ : (s : Shape) × (s.Idx → BitVec 32)), ⟨⟨1, ![100000]⟩, iotaInDim ⟨1, ![100000]⟩ 32 0⟩].map (·.1)) ⟨1, ![900000]⟩ 0)
    (n : Fin 100000) :
    (concatenate ⟨1, ![900000]⟩ 0 [(⟨⟨1, ![800000]⟩, a⟩ : (s : Shape) × (s.Idx → BitVec 32)), ⟨⟨1, ![100000]⟩, iotaInDim ⟨1, ![100000]⟩ 32 0⟩] h
      (ix1 (⟨800000 + n.val, by omega⟩ : Fin 900000))).toInt = (n.val : Int) := by
  have hc := concatenate_apply_piece (t := ⟨1, ![900000]⟩) 0
    [(⟨⟨1, ![800000]⟩, a⟩ : (s : Shape) × (s.Idx → BitVec 32)), ⟨⟨1, ![100000]⟩, iotaInDim ⟨1, ![100000]⟩ 32 0⟩] h
    (ix1 (⟨800000 + n.val, by omega⟩ : Fin 900000)) 1 (by simp) ⟨1, ![100000]⟩ (iotaInDim ⟨1, ![100000]⟩ 32 0) rfl rfl 800000 rfl (ix1 n)
    (fun b hb => absurd (Subsingleton.elim _ _) hb) rfl
  rw [hc]
  show (BitVec.ofNat 32 n.val).toInt = (n.val : Int)
  have hlt := n.isLt
  rw [BitVec.toInt_eq_toNat_cond, BitVec.toNat_ofNat, Nat.mod_eq_of_lt (by omega), if_pos (by omega)]

end Cert.Gcn

end
-- ==== Proof.RefSide.lean ====
/-
  The reference program read entry by entry.

  Every stage of the reference is read at an index from its operands at an index, and the chain of readings is
  identified with the network of Spec.lean: the first linear map, a propagation step with the weights applied on the
  edges, a bias, a rectifier and the next linear map — twice —, a last bias, and the logarithm of the softmax of each
  row. The reference recomputes the same index arrays and the same products of weights before each step; the copies
  are equal, and each step is read once, for any feature array.
-/
import proofs.«121146_j10118942949882_2_alg».proof.Proof.RefStages
import proofs.«121146_j10118942949882_2_alg».proof.Proof.Spec
import proofs.«121146_j10118942949882_2_alg».proof.Proof.Edges
import proofs.«121146_j10118942949882_2_alg».proof.Proof.LibScatterRows
import proofs.«121146_j10118942949882_2_alg».proof.Proof.LibGatherRows
import proofs.«121146_j10118942949882_2_alg».proof.Proof.LibMaxReduce

noncomputable section

open scoped BigOperators

namespace Cert.Gcn.RefSide

open Cert.ReferenceIdeal Cert.ReferenceIdeal.Gen Cert.ReferenceIdeal.ReadP Idealize.ShloMosaic Idealize.ShloMosaic.ValueIdx
  Cert.LibMaxReduce Cert.Gcn

/-- Two rank-2 indices with the same coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

variable (x0 : (⟨S100000x256, .f32⟩ : BufTy).Contents (Elt Ideal)) (x1 : (⟨S2x800000, .i32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x64, .f32⟩ : BufTy).Contents (Elt Ideal)) (x7 : (⟨S64, .f32⟩ : BufTy).Contents (Elt Ideal))

/-! ## The dimension numbers and the repeated index arrays -/

/-- The program's row gather has the dimension numbers of a gather of matrix rows. -/
theorem gatherRows_eq : gather_S100000x256_S900000x1_S900000x256_1_0_n_n_0_1_1256
    = Cert.RowGather.rowGatherDims 100000 900000 256 Gen.gather_S100000x256_S900000x1_S900000x256_1_0_n_n_0_1_1256_wf := rfl

/-- The program's row scatter has the dimension numbers of a scatter of matrix rows. -/
theorem scatterRows_eq : scatter_S100000x256_S900000x1_S900000x256_1_0_0_1
    = Cert.RowScatter.rowScatterDims 100000 900000 256 Gen.scatter_S100000x256_S900000x1_S900000x256_1_0_0_1_wf := rfl

/-- The program's gather of the weights has the dimension numbers of a gather of single entries of a vector. -/
theorem gatherVec_eq : gather_S100000_S900000x1_S900000_n_0_n_n_0_1_1
    = Cert.Gcn.vecGatherDims 100000 900000 Gen.gather_S100000_S900000x1_S900000_n_0_n_n_0_1_1_wf := rfl

/-- The wrapped source column is computed again before the first row gather: the same array. -/
theorem v33_eq : val_main_v33 (F := Ideal) x1 = val_main_v18 (F := Ideal) x1 := rfl
/-- The raw target column is computed again before the first row scatter: the same array. -/
theorem v39_eq : val_main_v39 (F := Ideal) x1 = val_main_v9 (F := Ideal) x1 := rfl
/-- The zero array of the first scatter is the constant zero. -/
theorem v38_apply (j : S100000x256.Idx) : val_main_v38 (F := Ideal) j = zeroW := rfl

/-- THE PRODUCT OF WEIGHTS ON AN EDGE: the weight at the edge's source times the weight at its target, both read
    through the wrapped index clamped into range. -/
theorem v27_apply (e : Fin 900000) :
    val_main_v27 (F := Ideal) x1 (ix1 e)
      = val_main_v11 (F := Ideal) x1 (ix1 (rowAt (val_main_v18 (F := Ideal) x1) e))
        * val_main_v11 (F := Ideal) x1 (ix1 (rowAt (val_main_v25 (F := Ideal) x1) e)) := by
  rw [val_main_v27_apply, Ideal.mulf_def]
  unfold val_main_v19 val_main_v26
  rw [gatherVec_eq, gather_vec_apply (by norm_num), gather_vec_apply (by norm_num)]
  rfl

/-- The reference's propagation step in the form of Spec.lean: the weights are the reciprocal square roots of the
    degrees, the sources are read through the wrapped source column, the targets through the raw target column, and
    the target's weight through the wrapped target column. -/
abbrev stepR (x1 : (⟨S2x800000, .i32⟩ : BufTy).Contents (Elt Ideal)) :
    (Fin 100000 → Fin 256 → EReal) → Fin 100000 → Fin 256 → EReal :=
  propR (val_main_v11 (F := Ideal) x1) (val_main_v18 (F := Ideal) x1) (val_main_v9 (F := Ideal) x1) (val_main_v25 (F := Ideal) x1)

/-! ## The first linear map -/

/-- The first matrix product read at (i, c): row i of the features times column c of the first weight matrix. -/
theorem v12_apply (i : Fin 100000) (c : Fin 256) : val_main_v12 (F := Ideal) x0 x2 (ix2 i c) = feat0 x0 x2 i c := by
  rw [val_main_v12_apply]
  unfold feat0
  refine Finset.sum_congr rfl fun k _ => ?_
  rw [show lidx_main_v12 (ix2 i c) k = ix2 i k by idx2, show ridx_main_v12 (ix2 i c) k = ix2 k c by idx2]

/-! ## A propagation step -/

/-- The products of weights broadcast along the rows of the messages, read at (e, c): the product on edge e. -/
theorem v36_apply (e : Fin 900000) (c : Fin 256) :
    val_main_v36 (F := Ideal) x1 (ix2 e c) = val_main_v27 (F := Ideal) x1 (ix1 e) := by
  rw [val_main_v36_apply, val_main_v35_apply, show idx_main_v35 (idx_main_v36 (ix2 e c)) = ix1 e by idx1]

/-- Rows of a feature array H gathered at the edges' sources, scaled entry by entry by an array W, and added into an
    array Z at the edges' targets: read at (n, c), the entry of Z plus the sum over the edges landing on n of H at the
    edge's source and column c times W at the edge and column c. -/
theorem scatter_gather_apply (Z H : (⟨2, ![100000, 256]⟩ : Shape).Idx → EReal) (idxS idxT : IVec ⟨2, ![900000, 1]⟩ 32)
    (W : (⟨2, ![900000, 256]⟩ : Shape).Idx → EReal) (n : Fin 100000) (c : Fin 256) :
    Host.scatterAdd (F := Ideal) (φ := .f32) scatter_S100000x256_S900000x1_S900000x256_1_0_0_1 Z idxT
        (mulf (F := Ideal) (φ := .f32) (Host.gather gather_S100000x256_S900000x1_S900000x256_1_0_n_n_0_1_1256 H idxS) W) (ix2 n c)
      = Z (ix2 n c) + ∑ e ∈ into idxT n, H (ix2 (rowAt idxS e) c) * W (ix2 e c) := by
  unfold Host.scatterAdd
  rw [Ideal.hostScatterAdd_def, scatterRows_eq, Cert.RowScatter.hostScatterAdd_rows_apply]
  unfold into
  refine congrArg (Z (ix2 n c) + ·) (Finset.sum_congr rfl fun e _ => ?_)
  unfold mulf rowAt
  rw [Ideal.mulf_def, gatherRows_eq, Cert.RowGather.gather_rows_apply (by norm_num)]

/-- A PROPAGATION STEP OF THE REFERENCE, for any feature array H: the rows of H gathered at the edges' sources, each
    scaled by the product of weights on its edge, and added into zeros at the edges' targets. Read at (n, c) it is
    the sum over the edges landing on n of H at the edge's source and column c times the product of weights. -/
theorem prop_apply (H : (⟨S100000x256, .f32⟩ : BufTy).Contents (Elt Ideal)) (n : Fin 100000) (c : Fin 256) :
    Host.scatterAdd (F := Ideal) (φ := .f32) scatter_S100000x256_S900000x1_S900000x256_1_0_0_1 (val_main_v38 (F := Ideal))
        (val_main_v39 (F := Ideal) x1)
        (mulf (Host.gather gather_S100000x256_S900000x1_S900000x256_1_0_n_n_0_1_1256 H (val_main_v33 (F := Ideal) x1))
          (val_main_v36 (F := Ideal) x1)) (ix2 n c)
      = stepR x1 (fun r k => H (ix2 r k)) n c := by
  rw [scatter_gather_apply, v38_apply, v39_eq, v33_eq]
  unfold stepR propR
  refine congrArg (zeroW + ·) (Finset.sum_congr rfl fun e _ => ?_)
  rw [v36_apply, v27_apply]

/-- The first propagation step read at (n, c). -/
theorem v40_apply (n : Fin 100000) (c : Fin 256) :
    val_main_v40 (F := Ideal) x0 x1 x2 (ix2 n c) = stepR x1 (feat0 x0 x2) n c := by
  unfold val_main_v40 val_main_v37 val_main_v34
  rw [prop_apply, show (fun r k => val_main_v12 (F := Ideal) x0 x2 (ix2 r k)) = feat0 x0 x2 from
    funext fun r => funext fun k => v12_apply x0 x2 r k]

/-- Bias and rectifier after the first step, read at (i, k). -/
theorem v44_apply (i : Fin 100000) (k : Fin 256) :
    val_main_v44 (F := Ideal) x0 x1 x2 x3 (ix2 i k) = max (stepR x1 (feat0 x0 x2) i k + x3 (ix1 k)) zeroW := by
  rw [val_main_v44_apply, val_main_v43_apply, v40_apply, val_main_v42_apply, val_main_v41_apply,
    val_main_call0_v0_apply, val_main_call0_cst_apply, Ideal.maximumf_def, Ideal.addf_def, Ideal.ofBits_def,
    show idx_main_v41 (idx_main_v42 (ix2 i k)) = ix1 k by idx1]

/-- The second matrix product read at (i, c): the next linear map of the rectified first step. -/
theorem v45_apply (i : Fin 100000) (c : Fin 256) :
    val_main_v45 (F := Ideal) x0 x1 x2 x3 x4 (ix2 i c) = hidden x3 x4 (stepR x1 (feat0 x0 x2)) i c := by
  rw [val_main_v45_apply, hidden]
  refine Finset.sum_congr rfl fun k _ => ?_
  rw [show lidx_main_v45 (ix2 i c) k = ix2 i k by idx2, show ridx_main_v45 (ix2 i c) k = ix2 k c by idx2, v44_apply]

/-! ## The second step: the same index arrays and products of weights, computed again -/

/-- The wrapped source column is computed again before the second row gather: the same array. -/
theorem v66_eq : val_main_v66 (F := Ideal) x1 = val_main_v33 (F := Ideal) x1 := rfl
/-- The raw target column is computed again before the second row scatter: the same array. -/
theorem v72_eq : val_main_v72 (F := Ideal) x1 = val_main_v39 (F := Ideal) x1 := rfl
/-- The zero array of the second scatter is the zero array of the first. -/
theorem v71_eq : val_main_v71 (F := Ideal) = val_main_v38 (F := Ideal) := rfl
/-- The products of weights are computed again before the second step: the same array. -/
theorem v69_eq : val_main_v69 (F := Ideal) x1 = val_main_v36 (F := Ideal) x1 := rfl

/-- The second propagation step read at (n, c). -/
theorem v73_apply (n : Fin 100000) (c : Fin 256) :
    val_main_v73 (F := Ideal) x0 x1 x2 x3 x4 (ix2 n c) = stepR x1 (hidden x3 x4 (stepR x1 (feat0 x0 x2))) n c := by
  unfold val_main_v73 val_main_v70 val_main_v67
  rw [v66_eq, v72_eq, v71_eq, v69_eq, prop_apply,
    show (fun r k => val_main_v45 (F := Ideal) x0 x1 x2 x3 x4 (ix2 r k)) = hidden x3 x4 (stepR x1 (feat0 x0 x2)) from
      funext fun r => funext fun k => v45_apply x0 x1 x2 x3 x4 r k]

/-- Bias and rectifier after the second step, read at (i, k). -/
theorem v77_apply (i : Fin 100000) (k : Fin 256) :
    val_main_v77 (F := Ideal) x0 x1 x2 x3 x4 x5 (ix2 i k)
      = max (stepR x1 (hidden x3 x4 (stepR x1 (feat0 x0 x2))) i k + x5 (ix1 k)) zeroW := by
  rw [val_main_v77_apply, val_main_v76_apply, v73_apply, val_main_v75_apply, val_main_v74_apply,
    val_main_call1_v0_apply, val_main_call1_cst_apply, Ideal.maximumf_def, Ideal.addf_def, Ideal.ofBits_def,
    show idx_main_v74 (idx_main_v75 (ix2 i k)) = ix1 k by idx1]

/-- The last matrix product read at (i, c): the last linear map of the rectified second step. -/
theorem v78_apply (i : Fin 100000) (c : Fin 64) :
    val_main_v78 (F := Ideal) x0 x1 x2 x3 x4 x5 x6 (ix2 i c)
      = hidden x5 x6 (stepR x1 (hidden x3 x4 (stepR x1 (feat0 x0 x2)))) i c := by
  rw [val_main_v78_apply, hidden]
  refine Finset.sum_congr rfl fun k _ => ?_
  rw [show lidx_main_v78 (ix2 i c) k = ix2 i k by idx2, show ridx_main_v78 (ix2 i c) k = ix2 k c by idx2, v77_apply]

/-- THE LOGITS read at (i, c): the last linear map plus the last bias. -/
theorem v81_apply (i : Fin 100000) (c : Fin 64) :
    val_main_v81 (F := Ideal) x0 x1 x2 x3 x4 x5 x6 x7 (ix2 i c)
      = hidden x5 x6 (stepR x1 (hidden x3 x4 (stepR x1 (feat0 x0 x2)))) i c + x7 (ix1 c) := by
  rw [val_main_v81_apply, v78_apply, val_main_v80_apply, val_main_v79_apply, Ideal.addf_def,
    show idx_main_v79 (idx_main_v80 (ix2 i c)) = ix1 c by idx1]

/-! ## The logarithm of the softmax of a row -/

/-- The maximum of row i of the logits as the reference computes it: the running maximum from minus infinity, joined
    with minus infinity once more, which changes nothing. -/
theorem rowMax_apply (i : Fin 100000) :
    val_main_call2_v2 (F := Ideal) x0 x1 x2 x3 x4 x5 x6 x7 (ix1 i)
      = foldMax ninfW (fun k : Fin 64 => val_main_v81 (F := Ideal) x0 x1 x2 x3 x4 x5 x6 x7 (ix2 i k)) := by
  have h0 : val_main_call2_v0 (F := Ideal) x0 x1 x2 x3 x4 x5 x6 x7 (ix1 i)
      = foldMax ninfW (fun k : Fin 64 => val_main_v81 (F := Ideal) x0 x1 x2 x3 x4 x5 x6 x7 (ix2 i k)) := by
    unfold val_main_call2_v0
    generalize val_main_v81 (F := Ideal) x0 x1 x2 x3 x4 x5 x6 x7 = L
    exact hostReduce_maximumf_lastAxis_apply L _ _ (by decide) _ i
  rw [val_main_call2_v2_apply, h0, val_main_call2_v1_apply, val_main_call2_cst_0_apply, Ideal.maximumf_def,
    Ideal.ofBits_def]
  exact max_foldMax _ _

/-- A logit below its row's maximum, read at (i, c). -/
theorem shifted_apply (i : Fin 100000) (c : Fin 64) :
    val_main_call2_v5 (F := Ideal) x0 x1 x2 x3 x4 x5 x6 x7 (ix2 i c)
      = val_main_v81 (F := Ideal) x0 x1 x2 x3 x4 x5 x6 x7 (ix2 i c)
        - foldMax ninfW (fun k : Fin 64 => val_main_v81 (F := Ideal) x0 x1 x2 x3 x4 x5 x6 x7 (ix2 i k)) := by
  rw [val_main_call2_v5_apply, val_main_call2_v4_apply, val_main_call2_v3_apply, Ideal.subf_def,
    show idx_main_call2_v3 (idx_main_call2_v4 (ix2 i c)) = ix1 i by idx1, rowMax_apply]

/-- The sum over row i of the exponentials of the logits below the row's maximum; the sum starts from zero. -/
theorem sumExp_apply (i : Fin 100000) :
    val_main_call2_v7 (F := Ideal) x0 x1 x2 x3 x4 x5 x6 x7 (ix1 i)
      = ∑ k : Fin 64, Ideal.exp (val_main_v81 (F := Ideal) x0 x1 x2 x3 x4 x5 x6 x7 (ix2 i k)
          - foldMax ninfW (fun k' : Fin 64 => val_main_v81 (F := Ideal) x0 x1 x2 x3 x4 x5 x6 x7 (ix2 i k'))) := by
  rw [val_main_call2_v7_apply, val_main_call2_cst_1_apply, Ideal.ofBits_def, Ideal.ofBits_zero_f32, zero_add]
  refine Finset.sum_congr rfl fun k _ => ?_
  rw [show idx_main_call2_v7 (ix1 i) k = ix2 i k by idx2, val_main_call2_v6_apply, Ideal.hostUnary_exp_def,
    shifted_apply]

/-- The reference's result read at (i, c): the logarithm of the softmax of row i of the logits, at column c. -/
theorem v82_logSoftmax (i : Fin 100000) (c : Fin 64) :
    val_main_v82 (F := Ideal) x0 x1 x2 x3 x4 x5 x6 x7 (ix2 i c)
      = logSoftmaxRow (fun c' : Fin 64 => val_main_v81 (F := Ideal) x0 x1 x2 x3 x4 x5 x6 x7 (ix2 i c')) c := by
  unfold logSoftmaxRow
  rw [val_main_v82_apply, shifted_apply, val_main_call2_v10_apply, val_main_call2_v9_apply, val_main_call2_v8_apply,
    Ideal.hostUnary_log_def, Ideal.subf_def,
    show idx_main_call2_v8 (idx_main_call2_v10 (ix2 i c)) = ix1 i by idx1, sumExp_apply]

/-! ## The reference is the network -/

/-- THE REFERENCE READ AT (i, c): the network of Spec.lean over the propagation step with the weights applied on the
    edges. -/
theorem ref_apply (i : Fin 100000) (c : Fin 64) :
    val_main_v82 (F := Ideal) x0 x1 x2 x3 x4 x5 x6 x7 (ix2 i c)
      = outOf (propR (val_main_v11 (F := Ideal) x1) (val_main_v18 (F := Ideal) x1) (val_main_v9 (F := Ideal) x1)
          (val_main_v25 (F := Ideal) x1)) x0 x2 x3 x4 x5 x6 x7 i c := by
  unfold outOf
  rw [v82_logSoftmax, show (fun c' : Fin 64 => val_main_v81 (F := Ideal) x0 x1 x2 x3 x4 x5 x6 x7 (ix2 i c'))
      = fun c' : Fin 64 => hidden x5 x6 (stepR x1 (hidden x3 x4 (stepR x1 (feat0 x0 x2)))) i c' + x7 (ix1 c') from
    funext fun c' => v81_apply x0 x1 x2 x3 x4 x5 x6 x7 i c']

/-! ## The same network with the weights applied at the nodes -/

/-- The raw target column is the edge list's target vector as a column. -/
theorem v9_eq : val_main_v9 (F := Ideal) x1
    = asColumn Gen.bcast_S900000_S900000x1_0 (val_main_v6 (F := Ideal) x1) := rfl
/-- The wrapped target column is the target vector, wrapped, as a column. -/
theorem v25_eq : val_main_v25 (F := Ideal) x1
    = asColumn Gen.bcast_S900000_S900000x1_0 (wrap Gen.bcast_S_S900000 (val_main_v6 (F := Ideal) x1)) := rfl
/-- The weights are the reciprocal square roots of the numbers of edges landing on the nodes. -/
theorem v11_eq : val_main_v11 (F := Ideal) x1
    = Host.rsqrt (F := Ideal) (degree Gen.scatter_S100000_S900000x1_S900000_n_0_0_1_wf Gen.bcast_S_S100000
        Gen.bcast_S_S900000 (val_main_v9 (F := Ideal) x1)) := rfl
/-- The target vector: the given targets followed by the loops. -/
theorem v6_eq : val_main_v6 (F := Ideal) x1
    = concatenate ⟨1, ![900000]⟩ 0 [(⟨⟨1, ![800000]⟩, val_main_v5 (F := Ideal) x1⟩ : (s : Shape) × (s.Idx → BitVec 32)),
        ⟨⟨1, ![100000]⟩, iotaInDim ⟨1, ![100000]⟩ 32 0⟩] Gen.concatenates_S800000_S100000_S900000_d0 := rfl

/-- An edge landing on node n reads node n through the wrapped target column, clamped. -/
theorem target_wrap (e : Fin 900000) (n : Fin 100000)
    (h : (val_main_v9 (F := Ideal) x1 (ix2 e ⟨0, Nat.one_pos⟩)).toInt = (n.val : Int)) :
    rowAt (val_main_v25 (F := Ideal) x1) e = n := by
  rw [v25_eq]
  rw [v9_eq] at h
  exact rowAt_wrap_of_target _ _ _ e n h

/-- The loop of node n is among the edges: edge 800000 + n has target n. -/
theorem loop_target (n : Fin 100000) :
    (val_main_v9 (F := Ideal) x1 (ix2 (⟨800000 + n.val, by omega⟩ : Fin 900000) ⟨0, Nat.one_pos⟩)).toInt = (n.val : Int) := by
  rw [v9_eq, asColumn_apply, v6_eq]
  exact loops_apply _ _ n

/-- Every node's weight is a nonnegative finite number: its loop lands on it, so at least one edge does. -/
theorem weight_ok (n : Fin 100000) :
    0 ≤ (val_main_v11 (F := Ideal) x1 (ix1 n) : EReal) ∧ (val_main_v11 (F := Ideal) x1 (ix1 n) : EReal) ≠ ⊤ := by
  rw [v11_eq]
  exact weight_nonneg_ne_top _ _ _ _ (loop_target x1) n

/-- THE REFERENCE READ AT (i, c), with the weights applied at the nodes: an edge landing on a node reads that node
    through the clamped target index, and the weights are nonnegative and finite, so the two arrangements of a
    propagation step agree. -/
theorem ref_apply_K (i : Fin 100000) (c : Fin 64) :
    val_main_v82 (F := Ideal) x0 x1 x2 x3 x4 x5 x6 x7 (ix2 i c)
      = outOf (propK (val_main_v11 (F := Ideal) x1) (val_main_v18 (F := Ideal) x1) (val_main_v9 (F := Ideal) x1))
          x0 x2 x3 x4 x5 x6 x7 i c := by
  rw [propK_eq_propR _ _ _ (val_main_v25 (F := Ideal) x1) (target_wrap x1) (weight_ok x1)]
  exact ref_apply x0 x1 x2 x3 x4 x5 x6 x7 i c

end Cert.Gcn.RefSide

end
-- ==== Proof.lean ====
/-
  The certificate of a two-layer graph convolution network with a final linear layer and a row-wise logarithm of the
  softmax: a kernel program of three launches among host operations against a reference written in plain array
  operations, equal as extended reals.

  Both programs compute, from the edge list, the node weights `dis` — the reciprocal square root of the number of edges
  landing on each node, loops included — and propagate features along the edges twice. The reference scales every
  message by `dis(source) · dis(target)` on the edge and sums the messages at the target. The kernel scales the features by
  `dis` at the source inside one launch, sums the gathered rows at the target on the host, and scales the sum by
  `dis(target)` at the start of the next launch. The two agree because the edges summed at a node all have that node as
  target and because a node weight is a nonnegative finite number, by which a finite sum of extended reals may be scaled
  term by term (Spec.lean, Edges.lean). Everything else is the same arithmetic in both programs: matrix products (in
  blocks of 2000 rows in the kernel, whole in the reference), biases, rectifiers, and each row's logits minus their
  maximum minus the logarithm of the sum of the exponentials of those differences. A change of float format is the
  identity on the extended reals.

  The kernel's result array is read off its run (KernelRun.lean), launch by launch (Region0–2.lean over Payloads.lean),
  through the host operations between the launches (Transport.lean), and then at an entry (KernelValue.lean). The
  reference's result is read off its run stretch by stretch (RefRun.lean) and at an entry (RefSide.lean). The three
  frames are the programs' runs with the values forgotten; the idealization rewrote nothing.
-/
import proofs.«121146_j10118942949882_2_alg».proof.Defs
import proofs.«121146_j10118942949882_2_alg».proof.Proof.Gen.Kernel
import proofs.«121146_j10118942949882_2_alg».proof.Proof.Gen.Kernel.Skeleton
import proofs.«121146_j10118942949882_2_alg».proof.Proof.Gen.Kernel.Launch
import proofs.«121146_j10118942949882_2_alg».proof.Proof.Gen.Kernel.Points
import proofs.«121146_j10118942949882_2_alg».proof.Proof.Gen.Kernel.Frame
import proofs.«121146_j10118942949882_2_alg».proof.Proof.Gen.KernelIdeal
import proofs.«121146_j10118942949882_2_alg».proof.Proof.Gen.KernelIdeal.Skeleton
import proofs.«121146_j10118942949882_2_alg».proof.Proof.Gen.KernelIdeal.Launch
import proofs.«121146_j10118942949882_2_alg».proof.Proof.Gen.KernelIdeal.Points
import proofs.«121146_j10118942949882_2_alg».proof.Proof.Gen.KernelIdeal.Frame
import proofs.«121146_j10118942949882_2_alg».proof.Proof.Gen.ReferenceIdeal
import proofs.«121146_j10118942949882_2_alg».proof.Proof.Gen.Pre_finite_inputs
import proofs.«121146_j10118942949882_2_alg».proof.Proof.KernelRun
import proofs.«121146_j10118942949882_2_alg».proof.Proof.KernelValue
import proofs.«121146_j10118942949882_2_alg».proof.Proof.RefRun
import proofs.«121146_j10118942949882_2_alg».proof.Proof.RefSide
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The two programs' index arrays and node weights are the same functions of the edge list -/

section Shared

variable (a1 : Cert.KernelIdeal.S2x800000.Idx → BitVec 32)

theorem dis_eq : Cert.ReferenceIdeal.ReadP.val_main_v11 (F := Ideal) a1 = Cert.KernelIdeal.Transport.disK a1 := rfl
theorem idxS_eq : Cert.ReferenceIdeal.ReadP.val_main_v18 (F := Ideal) a1 = Cert.KernelIdeal.Transport.idxS a1 := rfl
theorem idxT_eq : Cert.ReferenceIdeal.ReadP.val_main_v9 (F := Ideal) a1 = Cert.KernelIdeal.Transport.idxT a1 := rfl

end Shared

/-- THE TWO RESULTS AGREE: the reference's last stage and the kernel's result array are the same function of the
    argument arrays, entry by entry the specification's network over the propagation step with the weights at the nodes. -/
theorem results_agree (x : Cert.KernelIdeal.S100000x256.Idx → EReal) (a1 : Cert.KernelIdeal.S2x800000.Idx → BitVec 32)
    (w1 : Cert.KernelIdeal.S256x256.Idx → EReal) (b1 : Cert.KernelIdeal.S256.Idx → EReal)
    (w2 : Cert.KernelIdeal.S256x256.Idx → EReal) (b2 : Cert.KernelIdeal.S256.Idx → EReal)
    (wo : Cert.KernelIdeal.S256x64.Idx → EReal) (bo : Cert.KernelIdeal.S64.Idx → EReal) :
    Cert.ReferenceIdeal.ReadP.val_main_v82 (F := Ideal) x a1 w1 b1 w2 b2 wo bo
      = Cert.KernelIdeal.AtEntry.Yout a1 x w1 b1 w2 b2 wo bo := by
  funext j
  obtain ⟨i, c, rfl⟩ : ∃ (i : Fin 100000) (c : Fin 64), j = ix2 i c := ⟨j 0, j 1, eq_ix2 j⟩
  rw [Cert.Gcn.RefSide.ref_apply_K, Cert.KernelIdeal.AtEntry.Yout_apply, dis_eq, idxS_eq, idxT_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunByHand.run (F := Ideal) m ρ)

/-- The kernel's run ends with its result at the last boundary's contents, which is the kernel's function of the
    arguments; the reference's run ends with its result at its last stage of arguments that agree; the two functions
    are one. -/
theorem algebraic : Cert.algebraic_KernelIdeal_ReferenceIdeal := by
  intro m ρ m' ρ' _ hagree
  refine ⟨fun c => Cert.KernelIdeal.Gen.W6 m ρ c (Proc.devRef .tc Cert.KernelIdeal.main_v38), Cert.KernelIdeal.Run.run_main m ρ, ?_⟩
  refine (θ_run Cert.ReferenceIdeal.defs _ _).mono (fun _ h c => ⟨(h c).1.trans ?_, (h c).2⟩)
    (Cert.ReferenceIdeal.RunByHand.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (results_agree _ _ _ _ _ _ _ _).trans (Cert.KernelIdeal.Transport.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
